-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S512x1024 .f32 .bf16
  ∧ IdealRules.truncf_extf.Statement Cert.KernelIdeal.S512x1024 .f32 .bf16
  ∧ IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S65536x1024 .f32) (main_arg2 : FVec F S65536x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x1024 .f32 := Host.absf main_arg1
  let main_cst_0 : FVec F S_ .f32 := constant S_ .f32 0x7F800000#32
  let main_v5 : FVec F S65536x1024 .f32 := broadcastInDim S65536x1024 ![] bcast_S_S65536x1024 main_cst_0
  let main_v6 : IVec S65536x1024 1 := cmpf .olt main_v4 main_v5
  let main_c_1 : IVec S_ 1 := constantI S_ 1 1#1
  let main_v7 : IVec S_ 1 := (fun x v => Host.reduce IntOp.andi x v reducesTo_S65536x1024_S_d0_1 h_S_) main_v6 main_c_1
  let main_v8 : IVec S_ 1 := andi main_v3 main_v7
  let main_v9 : FVec F S65536x1024 .f32 := Host.absf main_arg2
  let main_cst_2 : FVec F S_ .f32 := constant S_ .f32 0x7F800000#32
  let main_v10 : FVec F S65536x1024 .f32 := broadcastInDim S65536x1024 ![] bcast_S_S65536x1024 main_cst_2
  let main_v11 : IVec S65536x1024 1 := cmpf .olt main_v9 main_v10
  let main_c_3 : IVec S_ 1 := constantI S_ 1 1#1
  let main_v12 : IVec S_ 1 := (fun x v => Host.reduce IntOp.andi x v reducesTo_S65536x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S2x1x1 : Shape := ⟨3, ![2, 1, 1]⟩
abbrev S2x1x1024 : Shape := ⟨3, ![2, 1, 1024]⟩
abbrev S512x1024 : Shape := ⟨2, ![512, 1024]⟩
abbrev S1x1x1 : Shape := ⟨3, ![1, 1, 1]⟩
abbrev S1x1x1024 : Shape := ⟨3, ![1, 1, 1024]⟩
abbrev S1x1 : Shape := ⟨2, ![1, 1]⟩
abbrev S512 : Shape := ⟨1, ![512]⟩
abbrev S512x1 : Shape := ⟨2, ![512, 1]⟩
abbrev S1 : Shape := ⟨1, ![1]⟩
abbrev S2 : Shape := ⟨1, ![2]⟩
abbrev S2x1024 : Shape := ⟨2, ![2, 1024]⟩
abbrev S_ : Shape := ⟨0, ![]⟩
abbrev S2x1 : Shape := ⟨2, ![2, 1]⟩

abbrev nBuf : Space → Nat
  | .hbm => 49
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S2x1x1, .f32⟩
  | .hbm, ⟨28, _⟩ => ⟨S2x1x1, .f32⟩
  | .hbm, ⟨29, _⟩ => ⟨S2x1x1024, .f32⟩
  | .hbm, ⟨30, _⟩ => ⟨S2, .f32⟩
  | .hbm, ⟨31, _⟩ => ⟨S2, .f32⟩
  | .hbm, ⟨32, _⟩ => ⟨S2x1024, .f32⟩
  | .hbm, ⟨33, _⟩ => ⟨S_, .f32⟩
  | .hbm, ⟨34, _⟩ => ⟨S_, .f32⟩
  | .hbm, ⟨35, _⟩ => ⟨S2, .f32⟩
  | .hbm, ⟨36, _⟩ => ⟨S2, .f32⟩
  | .hbm, ⟨37, _⟩ => ⟨S2, .f32⟩
  | .hbm, ⟨38, _⟩ => ⟨S2, .f32⟩
  | .hbm, ⟨39, _⟩ => ⟨S_, .f32⟩
  | .hbm, ⟨40, _⟩ => ⟨S_, .f32⟩
  | .hbm, ⟨41, _⟩ => ⟨S2x1, .f32⟩
  | .hbm, ⟨42, _⟩ => ⟨S2x1024, .f32⟩
  | .hbm, ⟨43, _⟩ => ⟨S2x1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024, .f32⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1024, .f32⟩
  | .local _ .vmem, ⟨20, _⟩ => ⟨S1x1x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S512x1024 : S1x1024.Broadcasts S512x1024
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  broadcasts_S1x1_S512x1 : S1x1.Broadcasts S512x1
  broadcasts_S1x1_S1x1024 : S1x1.Broadcasts S1x1024
  shapeCasts_S2x1x1_S2 : S2x1x1.ShapeCasts S2
  shapeCasts_S2x1x1024_S2x1024 : S2x1x1024.ShapeCasts S2x1024
  reducesTo_S2_S_d0 : S2.ReducesTo [0] S_
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  reducesTo_S2x1024_S1024_d0 : S2x1024.ReducesTo [0] S1024
  bcast_S_S1024 : S_.BroadcastsInDim S1024 (![] : Fin 0 → Fin S1024.rank)
  bcast_S1024_S1x1024_1 : S1024.BroadcastsInDim S1x1024 (![1] : Fin 1 → Fin S1x1024.rank)
  dot_S512x1024_S1024x1024_S512x1024_1_0_0_1_n_n_wf : DotDims.WF S512x1024 S1024x1024 S512x1024 [1] [0] [0] [1] [] []
  dot_S512x1_S512x1024_S1x1024_0_0_1_1_n_n_wf : DotDims.WF S512x1 S512x1024 S1x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S65536x1024.size a
  hwx0_2 : ∀ i : grid0.Coords, EltTy.bits .f32 = 32 ∨ (Rect.block (s := S65536x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S2x1x1.size a
  hwx0_12 : ∀ i : grid0.Coords, EltTy.bits .f32 = 32 ∨ (Rect.block (s := S2x1x1) S1x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1.size a ≤ S2x1x1.size a
  hwx0_13 : ∀ i : grid0.Coords, EltTy.bits .f32 = 32 ∨ (Rect.block (s := S2x1x1) S1x1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S2x1x1024.size a
  hwx0_14 : ∀ i : grid0.Coords, EltTy.bits .f32 = 32 ∨ (Rect.block (s := S2x1x1024) S1x1x1024.size (cc0_transform_14 i) (hinb0_14 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1_S512x1024_S1x1024_0_0_1_1_n_n : DotDims S512x1 S512x1024 S1x1024 where
  lhsContracting := [0]
  rhsContracting := [0]
  lhsNonContracting := [1]
  rhsNonContracting := [1]
  lhsBatch := []
  rhsBatch := []
  wf := dot_S512x1_S512x1024_S1x1024_0_0_1_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18_0) S1x1x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v18_1) S1x1x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v18_2) S1x1x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S65536 : Shape := ⟨1, ![65536]⟩
abbrev S1 : Shape := ⟨1, ![1]⟩
abbrev S1x65536 : Shape := ⟨2, ![1, 65536]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x1024, .f32⟩
  | .hbm, ⟨16, _⟩ => ⟨S65536x1024, .f32⟩
  | .hbm, ⟨17, _⟩ => ⟨S1024x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S1024x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S65536, .f32⟩
  | .hbm, ⟨39, _⟩ => ⟨S65536, .f32⟩
  | .hbm, ⟨40, _⟩ => ⟨S65536, .f32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S65536, .f32⟩
  | .hbm, ⟨45, _⟩ => ⟨S65536, .f32⟩
  | .hbm, ⟨46, _⟩ => ⟨S1x65536, .f32⟩
  | .hbm, ⟨47, _⟩ => ⟨S1x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  reducesTo_S65536x1024_S65536_d1 : S65536x1024.ReducesTo [1] S65536
  h_S_ : 0 < S_.numel
  reducesTo_S65536_S_d0 : S65536.ReducesTo [0] S_
  bcast_S_S1 : S_.BroadcastsInDim S1 (![] : Fin 0 → Fin S1.rank)
  bcast_S1_S65536_0 : S1.BroadcastsInDim S65536 (![0] : Fin 1 → Fin S65536.rank)
  bcast_S65536_S1x65536_1 : S65536.BroadcastsInDim S1x65536 (![1] : Fin 1 → Fin S1x65536.rank)
  dot_S65536x1024_S1024x1024_S65536x1024_1_0_0_1_n_n_wf : DotDims.WF S65536x1024 S1024x1024 S65536x1024 [1] [0] [0] [1] [] []
  dot_S1x65536_S65536x1024_S1x1024_1_0_0_1_n_n_wf : DotDims.WF S1x65536 S65536x1024 S1x1024 [1] [0] [0] [1] [] []

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S1x65536_S65536x1024_S1x1024_1_0_0_1_n_n : DotDims S1x65536 S65536x1024 S1x1024 where
  lhsContracting := [1]
  rhsContracting := [0]
  lhsNonContracting := [0]
  rhsNonContracting := [1]
  lhsBatch := []
  rhsBatch := []
  wf := dot_S1x65536_S65536x1024_S1x1024_1_0_0_1_n_n_wf

class Facts : Prop extends Facts₀ where

variable [Facts]
-- ==== Proof.RefImports.lean ====
/-
  The reference program's run, and its operations read one index at a time, are taken from the generated
  modules; this module only brings them into scope for the modules that compare the two programs.
-/
import proofs.«168512_j14955076125142_2_alg».proof.Proof.Gen.ReferenceIdeal.Run
import proofs.«168512_j14955076125142_2_alg».proof.Proof.Gen.ReferenceIdeal.Read
-- ==== Proof.Sanctioned.lean ====
/-
  The idealized kernel differs from the printed kernel at three places only: where a 512×1024 block of
  single-precision numbers is narrowed to bfloat16 and widened back at once (the "high part" of the two-term
  splitting of a matmul operand: the query block, the key block and the rectified second projection), the
  idealized kernel keeps the block itself. On the extended reals a change of format is the identity, so the
  kept block IS the narrowed-and-widened one; on machine words the pair is the rounding through bfloat16.
  Each of the three replacements is one instance of that rule.
-/
import proofs.«168512_j14955076125142_2_alg».proof.Defs

noncomputable section

namespace Cert.Proof.Sanctioned

open Idealize.ShloMosaic

/-- Narrowing to bfloat16 and widening back is the identity on extended reals and the bfloat16 rounding on
    words, at the block shape 512×1024: the rule's statement, three times. -/
theorem preserves : Cert.preserves_Kernel_KernelIdeal :=
  ⟨IdealRules.truncf_extf.statement Cert.KernelIdeal.S512x1024 .f32 .bf16,
   IdealRules.truncf_extf.statement Cert.KernelIdeal.S512x1024 .f32 .bf16,
   IdealRules.truncf_extf.statement Cert.KernelIdeal.S512x1024 .f32 .bf16⟩

end Cert.Proof.Sanctioned

end
-- ==== Proof.Spec.lean ====
/-
  Single-query attention over N rows of K features, as mathematics on the extended reals.

  Both programs first form one number per row, its *energy*
      e(n) = Σ_f relu(query·W0ᵀ + b0)(n,f) · (relu(key·W1ᵀ + b1)·Waᵀ + ba)(n,f),
  and then return the softmax-weighted average of the rows of `value`,
      out(f) = Σ_n softmax(e)(n) · value(n,f).
  Written without reference to a maximum, that average is
      out(f) = (Σ_n exp(e n) · value(n,f)) / (Σ_n exp(e n))            (`softAvg`),
  a quotient of two finite real sums with a positive denominator.

  One program subtracts the global maximum before exponentiating and divides each weight by the
  normaliser before the contraction (`refForm`). The other streams the rows in tiles, keeping a running
  triple (m, l, acc) that it rescales by exp(m_old − m_new) at every tile (`State.step`), does this
  independently on two halves of the rows, and merges the two triples at the end (`merge`). The
  invariant that makes the streamed form equal to `softAvg` never mentions which row attains the
  maximum: a state (m, l, acc) *stands for* the unnormalised sums L and A when m is real and
      l · exp m = L,     acc(f) · exp m = A(f)                            (`State.Holds`).
  One tile adds that tile's Σ exp(e) and Σ exp(e)·value to L and A whatever real number the new m is.

  The streamed program also forms each matrix product in three passes from a two-term splitting of
  its operands, x = hi + lo with hi = x and lo = x − x on the extended reals (`affine3`); for real
  operands lo = 0 and the three passes are the one product (`affine`).
-/
import Idealize.ShloMosaic.PureOps.Ideal

noncomputable section

namespace Cert.Attention

open scoped BigOperators
open Idealize.ShloMosaic

/-- An extended real that is a real number: neither infinity. -/
def IsReal (x : EReal) : Prop := ∃ r : ℝ, x = ((r : ℝ) : EReal)

/-! ## Energies -/

/-- The affine layer x·Wᵀ + b at row n, output feature f: Σ_k x(n,k)·W(f,k) + b(f). -/
def affine {N K K' : ℕ} (x : Fin N → Fin K → EReal) (W : Fin K' → Fin K → EReal) (b : Fin K' → EReal)
    (n : Fin N) (f : Fin K') : EReal :=
  (∑ k, x n k * W f k) + b f

/-- The same layer formed in three passes from the splitting of both operands into a high part (the
    operand itself) and a low part (the operand minus itself):
    hi(x)·hi(Wᵀ) + hi(x)·lo(Wᵀ) + lo(x)·hi(Wᵀ) + b. -/
def affine3 {N K K' : ℕ} (x : Fin N → Fin K → EReal) (W : Fin K' → Fin K → EReal) (b : Fin K' → EReal)
    (n : Fin N) (f : Fin K') : EReal :=
  ((∑ k, x n k * W f k) + (∑ k, x n k * (W f k - W f k)) + (∑ k, (x n k - x n k) * W f k)) + b f

/-- The energy of row n: the rectified first projection of `query` against the affine image of the
    rectified second projection of `key`, summed over the features. -/
def energy {N K : ℕ} (key query : Fin N → Fin K → EReal) (W0 W1 Wa : Fin K → Fin K → EReal)
    (b0 b1 ba : Fin K → EReal) (n : Fin N) : EReal :=
  ∑ f, max (affine query W0 b0 n f) 0 * affine (fun n' k => max (affine key W1 b1 n' k) 0) Wa ba n f

/-- The energy with every layer formed in three passes. -/
def energy3 {N K : ℕ} (key query : Fin N → Fin K → EReal) (W0 W1 Wa : Fin K → Fin K → EReal)
    (b0 b1 ba : Fin K → EReal) (n : Fin N) : EReal :=
  ∑ f, max (affine3 query W0 b0 n f) 0 * affine3 (fun n' k => max (affine3 key W1 b1 n' k) 0) Wa ba n f

/-! ## The weighted average -/

/-- The softmax-weighted average of the rows of v, with no maximum subtracted. -/
def softAvg {N F : ℕ} (e : Fin N → ℝ) (v : Fin N → Fin F → ℝ) (f : Fin F) : ℝ :=
  (∑ n, Real.exp (e n) * v n f) / (∑ n, Real.exp (e n))

/-- The average as the whole-array program forms it: weights exp(e n − M) divided by their sum, then
    contracted with v. -/
def refForm {N F : ℕ} (e : Fin N → EReal) (M : EReal) (v : Fin N → Fin F → EReal) (f : Fin F) : EReal :=
  ∑ n, Ideal.div (Ideal.exp (e n - M)) (∑ n', Ideal.exp (e n' - M)) * v n f

/-! ## The streamed form -/

/-- The running triple of the streamed softmax: the maximum so far, the normaliser and the
    accumulator, both relative to that maximum. -/
structure State (F : ℕ) where
  m : EReal
  l : EReal
  acc : Fin F → EReal

/-- Before the first tile: the maximum is −∞ and both sums are empty. -/
def State.init {F : ℕ} : State F := ⟨⊥, 0, fun _ => 0⟩

/-- One tile of B rows with energies e and values v, whose maximum is mt, folded into the state. -/
def State.step {F B : ℕ} (mt : EReal) (e : Fin B → EReal) (v : Fin B → Fin F → EReal) (s : State F) : State F :=
  ⟨max s.m mt,
   Ideal.exp (s.m - max s.m mt) * s.l + ∑ r, Ideal.exp (e r - max s.m mt),
   fun f => Ideal.exp (s.m - max s.m mt) * s.acc f + ∑ r, Ideal.exp (e r - max s.m mt) * v r f⟩

/-- The state is real and stands for the unnormalised sums L and A. -/
def State.Holds {F : ℕ} (s : State F) (L : ℝ) (A : Fin F → ℝ) : Prop :=
  ∃ (m l : ℝ) (a : Fin F → ℝ), s.m = ((m : ℝ) : EReal) ∧ s.l = ((l : ℝ) : EReal) ∧ (∀ f, s.acc f = ((a f : ℝ) : EReal))
    ∧ l * Real.exp m = L ∧ ∀ f, a f * Real.exp m = A f

/-- The merge of P independently streamed states against a common maximum mg. -/
def merge {F P : ℕ} (s : Fin P → State F) (mg : EReal) (f : Fin F) : EReal :=
  Ideal.div (∑ p, Ideal.exp ((s p).m - mg) * (s p).acc f) (∑ p, Ideal.exp ((s p).m - mg) * (s p).l)

/-! ## The common value -/

/-- A real extended real is the coercion of its real part. -/
theorem IsReal.coe_toReal {x : EReal} (h : IsReal x) : ((x.toReal : ℝ) : EReal) = x := by
  obtain ⟨r, rfl⟩ := h
  rfl

/-- What both programs return at output feature f when every input entry is real: the softmax-weighted
    average of the rows of `value` under the energies of (key, query), as a real number. (For inputs with an
    infinite entry this is only a name: `toReal` sends ±∞ to 0.) -/
def out {N K : ℕ} (key query value : Fin N → Fin K → EReal) (W0 W1 Wa : Fin K → Fin K → EReal)
    (b0 b1 ba : Fin K → EReal) (f : Fin K) : EReal :=
  ((softAvg (fun n => (energy key query W0 W1 Wa b0 b1 ba n).toReal) (fun n f' => (value n f').toReal) f : ℝ) : EReal)

end Cert.Attention

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  The precondition says, of each of the nine input arrays, that every entry has absolute value below +∞,
  and takes the conjunction. On the extended reals |x| < +∞ excludes both infinities, so every entry of
  every input is a real number.
-/
import proofs.«168512_j14955076125142_2_alg».proof.Pre_finite_inputs
import proofs.«168512_j14955076125142_2_alg».proof.Proof.Spec
import proofs.«168512_j14955076125142_2_alg».proof.Proof.LibFiniteDecode

noncomputable section

namespace Cert.FiniteInputs

open Idealize.ShloMosaic Idealize.ShloMosaic.ValueIdx Cert.Attention Cert.Pre_finite_inputs

/-- If the finiteness predicate of the nine inputs is all ones, every entry of every input is real. -/
theorem real_entries [Cert.Pre_finite_inputs.Facts]
    (x0 x1 x2 : FVec Ideal S65536x1024 .f32) (x3 : FVec Ideal S1024x1024 .f32) (x4 : FVec Ideal S1024 .f32)
    (x5 : FVec Ideal S1024x1024 .f32) (x6 : FVec Ideal S1024 .f32) (x7 : FVec Ideal S1024x1024 .f32)
    (x8 : FVec Ideal S1024 .f32)
    (h : Cert.Pre_finite_inputs.fn (F := Ideal) x0 x1 x2 x3 x4 x5 x6 x7 x8 = (fun _ => 1#1)) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) ∧ (∀ i, IsReal (x8 i)) := by
  -- the predicate is a scalar: read it at its one index, where it is a nested conjunction of nine all-reductions
  have e := congrFun h ValueIdx.ix0
  dsimp only [fn, fn_part1, fn_part2, andi] at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.LibFiniteDecode.real_of_all x0 _ _ _ e0, Cert.LibFiniteDecode.real_of_all x1 _ _ _ e1,
    Cert.LibFiniteDecode.real_of_all x2 _ _ _ e2, Cert.LibFiniteDecode.real_of_all x3 _ _ _ e3,
    Cert.LibFiniteDecode.real_of_all x4 _ _ _ e4, Cert.LibFiniteDecode.real_of_all x5 _ _ _ e5,
    Cert.LibFiniteDecode.real_of_all x6 _ _ _ e6, Cert.LibFiniteDecode.real_of_all x7 _ _ _ e7,
    Cert.LibFiniteDecode.real_of_all x8 _ _ _ e8⟩

end Cert.FiniteInputs

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.SoftmaxAlgebra.lean ====
/-
  The algebra that joins the whole-array softmax average, the streamed one and the plain quotient
  `softAvg`, for real data. Everything here is about finite sums of real numbers sitting inside the
  extended reals; no program appears.
-/
import proofs.«168512_j14955076125142_2_alg».proof.Proof.Spec
import proofs.«168512_j14955076125142_2_alg».proof.Proof.LibFiniteSums

noncomputable section

namespace Cert.Attention

open scoped BigOperators
open Idealize.ShloMosaic

/-! ## Real numbers stay real -/

theorem isReal_coe (r : ℝ) : IsReal (r : EReal) := ⟨r, rfl⟩
theorem isReal_zero : IsReal (0 : EReal) := ⟨0, by simp⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_sub {x y : EReal} (hx : IsReal x) (hy : IsReal y) : IsReal (x - y) := by
  obtain ⟨a, rfl⟩ := hx
  obtain ⟨b, rfl⟩ := hy
  exact ⟨a - b, (EReal.coe_sub a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_max {x y : EReal} (hx : IsReal x) (hy : IsReal y) : IsReal (max x y) := by
  rcases le_total x y with h | h
  · rw [max_eq_right h]; exact hy
  · rw [max_eq_left h]; exact hx
theorem isReal_sum {ι : Type*} (s : Finset ι) (f : ι → EReal) (h : ∀ i ∈ s, IsReal (f i)) : IsReal (∑ i ∈ s, f i) := by
  unfold IsReal at h
  choose! g hg using h
  refine ⟨∑ i ∈ s, g i, ?_⟩
  rw [← LibFiniteSums.coe_sum]
  exact Finset.sum_congr rfl hg
/-- A maximum taken from −∞ over a nonempty finite family of reals is real. -/
theorem isReal_fold_max {B : ℕ} (hB : 0 < B) (e : Fin B → EReal) (h : ∀ r, IsReal (e r)) :
    IsReal (Finset.univ.fold max (⊥ : EReal) e) := by
  have hlt : Finset.univ.fold max (⊥ : EReal) e < ⊤ := by
    rw [Finset.fold_max_lt]
    refine ⟨bot_lt_top, fun r _ => ?_⟩
    obtain ⟨a, ha⟩ := h r
    rw [ha]; exact EReal.coe_lt_top a
  have hgt : ⊥ < Finset.univ.fold max (⊥ : EReal) e := by
    rw [Finset.lt_fold_max]
    refine Or.inr ⟨⟨0, hB⟩, Finset.mem_univ _, ?_⟩
    obtain ⟨a, ha⟩ := h ⟨0, hB⟩
    rw [ha]; exact EReal.bot_lt_coe a
  exact ⟨_, (EReal.coe_toReal hlt.ne hgt.ne').symm⟩

/-! ## Three passes are one product, for real operands -/

theorem affine3_eq_affine {N K K' : ℕ} (x : Fin N → Fin K → EReal) (W : Fin K' → Fin K → EReal) (b : Fin K' → EReal)
    (hx : ∀ n k, IsReal (x n k)) (hW : ∀ f k, IsReal (W f k)) (n : Fin N) (f : Fin K') :
    affine3 x W b n f = affine x W b n f := by
  have h2 : (∑ k, x n k * (W f k - W f k)) = 0 := by
    refine Finset.sum_eq_zero fun k _ => ?_
    obtain ⟨w, hw⟩ := hW f k
    rw [hw, ← EReal.coe_sub, sub_self, EReal.coe_zero, mul_zero]
  have h3 : (∑ k, (x n k - x n k) * W f k) = 0 := by
    refine Finset.sum_eq_zero fun k _ => ?_
    obtain ⟨a, ha⟩ := hx n k
    rw [ha, ← EReal.coe_sub, sub_self, EReal.coe_zero, zero_mul]
  unfold affine3 affine
  rw [h2, h3, add_zero, add_zero]

theorem isReal_affine {N K K' : ℕ} (x : Fin N → Fin K → EReal) (W : Fin K' → Fin K → EReal) (b : Fin K' → EReal)
    (hx : ∀ n k, IsReal (x n k)) (hW : ∀ f k, IsReal (W f k)) (hb : ∀ f, IsReal (b f)) (n : Fin N) (f : Fin K') :
    IsReal (affine x W b n f) := by
  unfold affine
  exact isReal_add (isReal_sum _ _ fun k _ => isReal_mul (hx n k) (hW f k)) (hb f)

/-- For real inputs the energy formed in three passes per layer is the energy. -/
theorem energy3_eq_energy {N K : ℕ} (key query : Fin N → Fin K → EReal) (W0 W1 Wa : Fin K → Fin K → EReal)
    (b0 b1 ba : Fin K → EReal)
    (hkey : ∀ n k, IsReal (key n k)) (hquery : ∀ n k, IsReal (query n k))
    (hW0 : ∀ f k, IsReal (W0 f k)) (hW1 : ∀ f k, IsReal (W1 f k)) (hWa : ∀ f k, IsReal (Wa f k))
    (hb0 : ∀ f, IsReal (b0 f)) (hb1 : ∀ f, IsReal (b1 f)) (hba : ∀ f, IsReal (ba f)) (n : Fin N) :
    energy3 key query W0 W1 Wa b0 b1 ba n = energy key query W0 W1 Wa b0 b1 ba n := by
  have hinner : (fun n' k => max (affine3 key W1 b1 n' k) 0) = (fun n' k => max (affine key W1 b1 n' k) 0) := by
    funext n' k
    rw [affine3_eq_affine key W1 b1 hkey hW1]
  have hreal : ∀ n' k, IsReal (max (affine key W1 b1 n' k) 0) := fun n' k =>
    isReal_max (isReal_affine key W1 b1 hkey hW1 hb1 n' k) isReal_zero
  unfold energy3 energy
  rw [hinner]
  refine Finset.sum_congr rfl fun f _ => ?_
  rw [affine3_eq_affine query W0 b0 hquery hW0, affine3_eq_affine _ Wa ba hreal hWa]

/-- For real inputs every energy is real. -/
theorem isReal_energy {N K : ℕ} (key query : Fin N → Fin K → EReal) (W0 W1 Wa : Fin K → Fin K → EReal)
    (b0 b1 ba : Fin K → EReal)
    (hkey : ∀ n k, IsReal (key n k)) (hquery : ∀ n k, IsReal (query n k))
    (hW0 : ∀ f k, IsReal (W0 f k)) (hW1 : ∀ f k, IsReal (W1 f k)) (hWa : ∀ f k, IsReal (Wa f k))
    (hb0 : ∀ f, IsReal (b0 f)) (hb1 : ∀ f, IsReal (b1 f)) (hba : ∀ f, IsReal (ba f)) (n : Fin N) :
    IsReal (energy key query W0 W1 Wa b0 b1 ba n) := by
  unfold energy
  refine isReal_sum _ _ fun f _ =>
    isReal_mul (isReal_max (isReal_affine query W0 b0 hquery hW0 hb0 n f) isReal_zero) ?_
  exact isReal_affine _ Wa ba
    (fun n' k => isReal_max (isReal_affine key W1 b1 hkey hW1 hb1 n' k) isReal_zero) hWa hba n f

/-! ## The whole-array form -/

/-- Subtracting any real M before exponentiating and dividing by the normaliser before contracting gives
    the plain quotient: numerator and denominator both carry the factor exp(−M). -/
theorem refForm_eq_softAvg {N F : ℕ} (hN : 0 < N) (e : Fin N → ℝ) (M : ℝ) (v : Fin N → Fin F → ℝ) (f : Fin F) :
    refForm (fun n => ((e n : ℝ) : EReal)) ((M : ℝ) : EReal) (fun n f' => ((v n f' : ℝ) : EReal)) f
      = ((softAvg e v f : ℝ) : EReal) := by
  haveI : Nonempty (Fin N) := ⟨⟨0, hN⟩⟩
  have hS : (∑ n', Ideal.exp (((e n' : ℝ) : EReal) - ((M : ℝ) : EReal)))
      = ((∑ n', Real.exp (e n' - M) : ℝ) : EReal) := by
    rw [← LibFiniteSums.coe_sum]
    refine Finset.sum_congr rfl fun n' _ => ?_
    rw [← EReal.coe_sub, Ideal.exp_coe]
  have hpos : 0 < ∑ n', Real.exp (e n' - M) :=
    Finset.sum_pos (fun n' _ => Real.exp_pos _) Finset.univ_nonempty
  have hTpos : 0 < ∑ n', Real.exp (e n') :=
    Finset.sum_pos (fun n' _ => Real.exp_pos _) Finset.univ_nonempty
  have hT : (∑ n', Real.exp (e n' - M)) = (∑ n', Real.exp (e n')) / Real.exp M := by
    rw [Finset.sum_div]
    exact Finset.sum_congr rfl fun n' _ => Real.exp_sub _ _
  have hterm : ∀ n : Fin N,
      Ideal.div (Ideal.exp (((e n : ℝ) : EReal) - ((M : ℝ) : EReal))) ((∑ n', Real.exp (e n' - M) : ℝ) : EReal)
          * ((v n f : ℝ) : EReal)
        = ((Real.exp (e n - M) * (1 / ∑ n', Real.exp (e n' - M)) * v n f : ℝ) : EReal) := by
    intro n
    rw [Ideal.div_coe hpos.ne', ← EReal.coe_sub, Ideal.exp_coe, ← EReal.coe_mul, ← EReal.coe_mul]
  show (∑ n, Ideal.div (Ideal.exp (((e n : ℝ) : EReal) - ((M : ℝ) : EReal)))
        (∑ n', Ideal.exp (((e n' : ℝ) : EReal) - ((M : ℝ) : EReal))) * ((v n f : ℝ) : EReal)) = _
  rw [hS]
  refine (Finset.sum_congr rfl fun n _ => hterm n).trans ?_
  rw [LibFiniteSums.coe_sum]
  congr 1
  unfold softAvg
  rw [hT]
  conv_rhs => rw [Finset.sum_div]
  refine Finset.sum_congr rfl fun n _ => ?_
  rw [Real.exp_sub]
  have hM := Real.exp_ne_zero M
  have hT0 := hTpos.ne'
  field_simp

/-! ## The streamed form -/

/-- The first tile: from (−∞, 0, 0) the rescaling factor is exp(−∞) = 0 and the state stands for the tile's
    own sums. -/
theorem holds_step_init {F B : ℕ} (mt : ℝ) (e : Fin B → ℝ) (v : Fin B → Fin F → ℝ) :
    ((State.init (F := F)).step ((mt : ℝ) : EReal) (fun r => ((e r : ℝ) : EReal)) (fun r f => ((v r f : ℝ) : EReal))).Holds
      (∑ r, Real.exp (e r)) (fun f => ∑ r, Real.exp (e r) * v r f) := by
  have h1 : ∀ x : ℝ, Real.exp (x - mt) * Real.exp mt = Real.exp x := fun x => by
    rw [← Real.exp_add, sub_add_cancel]
  refine ⟨mt, ∑ r, Real.exp (e r - mt), fun f => ∑ r, Real.exp (e r - mt) * v r f, ?_, ?_, ?_, ?_, ?_⟩
  · show max (⊥ : EReal) ((mt : ℝ) : EReal) = ((mt : ℝ) : EReal)
    exact max_eq_right bot_le
  · show Ideal.exp (⊥ - max (⊥ : EReal) ((mt : ℝ) : EReal)) * 0
        + ∑ r, Ideal.exp (((e r : ℝ) : EReal) - max (⊥ : EReal) ((mt : ℝ) : EReal)) = _
    rw [max_eq_right bot_le, mul_zero, zero_add, ← LibFiniteSums.coe_sum]
    refine Finset.sum_congr rfl fun r _ => ?_
    rw [← EReal.coe_sub, Ideal.exp_coe]
  · intro f
    show Ideal.exp (⊥ - max (⊥ : EReal) ((mt : ℝ) : EReal)) * 0
        + ∑ r, Ideal.exp (((e r : ℝ) : EReal) - max (⊥ : EReal) ((mt : ℝ) : EReal)) * ((v r f : ℝ) : EReal) = _
    rw [max_eq_right bot_le, mul_zero, zero_add, ← LibFiniteSums.coe_sum]
    refine Finset.sum_congr rfl fun r _ => ?_
    rw [← EReal.coe_sub, Ideal.exp_coe, ← EReal.coe_mul]
  · rw [Finset.sum_mul]
    exact Finset.sum_congr rfl fun r _ => h1 _
  · intro f
    rw [Finset.sum_mul]
    exact Finset.sum_congr rfl fun r _ => by rw [mul_right_comm, h1]

/-- A later tile adds its own sums, whatever real number its maximum is:
    exp(m − m′)·l·exp(m′) = l·exp(m) and exp(e − m′)·exp(m′) = exp(e). -/
theorem holds_step {F B : ℕ} (s : State F) (L : ℝ) (A : Fin F → ℝ) (hs : s.Holds L A)
    (mt : ℝ) (e : Fin B → ℝ) (v : Fin B → Fin F → ℝ) :
    (s.step ((mt : ℝ) : EReal) (fun r => ((e r : ℝ) : EReal)) (fun r f => ((v r f : ℝ) : EReal))).Holds
      (L + ∑ r, Real.exp (e r)) (fun f => A f + ∑ r, Real.exp (e r) * v r f) := by
  obtain ⟨m, l, a, hm, hl, ha, hL, hA⟩ := hs
  have hmax : max ((m : ℝ) : EReal) ((mt : ℝ) : EReal) = ((max m mt : ℝ) : EReal) := by
    rcases le_total m mt with h | h
    · rw [max_eq_right h, max_eq_right (EReal.coe_le_coe_iff.mpr h)]
    · rw [max_eq_left h, max_eq_left (EReal.coe_le_coe_iff.mpr h)]
  have h1 : ∀ x : ℝ, Real.exp (x - max m mt) * Real.exp (max m mt) = Real.exp x := fun x => by
    rw [← Real.exp_add, sub_add_cancel]
  refine ⟨max m mt, Real.exp (m - max m mt) * l + ∑ r, Real.exp (e r - max m mt),
    fun f => Real.exp (m - max m mt) * a f + ∑ r, Real.exp (e r - max m mt) * v r f, ?_, ?_, ?_, ?_, ?_⟩
  · show max s.m ((mt : ℝ) : EReal) = _
    rw [hm, hmax]
  · show Ideal.exp (s.m - max s.m ((mt : ℝ) : EReal)) * s.l
        + ∑ r, Ideal.exp (((e r : ℝ) : EReal) - max s.m ((mt : ℝ) : EReal)) = _
    rw [hm, hl, hmax, ← EReal.coe_sub, Ideal.exp_coe, ← EReal.coe_mul, EReal.coe_add, ← LibFiniteSums.coe_sum]
    congr 1
  · intro f
    show Ideal.exp (s.m - max s.m ((mt : ℝ) : EReal)) * s.acc f
        + ∑ r, Ideal.exp (((e r : ℝ) : EReal) - max s.m ((mt : ℝ) : EReal)) * ((v r f : ℝ) : EReal) = _
    rw [hm, ha f, hmax, ← EReal.coe_sub, Ideal.exp_coe, ← EReal.coe_mul, EReal.coe_add, ← LibFiniteSums.coe_sum]
    congr 1
  · rw [← hL, add_mul, Finset.sum_mul]
    congr 1
    · rw [mul_right_comm, h1, mul_comm]
    · exact Finset.sum_congr rfl fun r _ => h1 _
  · intro f
    show (Real.exp (m - max m mt) * a f + ∑ r, Real.exp (e r - max m mt) * v r f) * Real.exp (max m mt)
      = A f + ∑ r, Real.exp (e r) * v r f
    rw [← hA f, add_mul, Finset.sum_mul]
    congr 1
    · rw [mul_right_comm, h1, mul_comm]
    · exact Finset.sum_congr rfl fun r _ => by rw [mul_right_comm, h1]

/-- Merging states that stand for (L p, A p) against any real common maximum gives the quotient of the
    totals, provided the total normaliser is not zero. -/
theorem merge_eq {F P : ℕ} (s : Fin P → State F) (L : Fin P → ℝ) (A : Fin P → Fin F → ℝ)
    (hs : ∀ p, (s p).Holds (L p) (A p)) (hL : (∑ p, L p) ≠ 0) (mg : ℝ) (f : Fin F) :
    merge s ((mg : ℝ) : EReal) f = (((∑ p, A p f) / (∑ p, L p) : ℝ) : EReal) := by
  unfold State.Holds at hs
  choose m l a hm hl ha hLp hAp using hs
  have hnum : (∑ p, Ideal.exp ((s p).m - ((mg : ℝ) : EReal)) * (s p).acc f)
      = ((∑ p, Real.exp (m p - mg) * a p f : ℝ) : EReal) := by
    rw [← LibFiniteSums.coe_sum]
    refine Finset.sum_congr rfl fun p _ => ?_
    rw [hm p, ha p f, ← EReal.coe_sub, Ideal.exp_coe, ← EReal.coe_mul]
  have hden : (∑ p, Ideal.exp ((s p).m - ((mg : ℝ) : EReal)) * (s p).l)
      = ((∑ p, Real.exp (m p - mg) * l p : ℝ) : EReal) := by
    rw [← LibFiniteSums.coe_sum]
    refine Finset.sum_congr rfl fun p _ => ?_
    rw [hm p, hl p, ← EReal.coe_sub, Ideal.exp_coe, ← EReal.coe_mul]
  have hnumR : (∑ p, Real.exp (m p - mg) * a p f) = Real.exp (-mg) * ∑ p, A p f := by
    rw [Finset.mul_sum]
    refine Finset.sum_congr rfl fun p _ => ?_
    rw [← hAp p f, sub_eq_add_neg, Real.exp_add]
    ring
  have hdenR : (∑ p, Real.exp (m p - mg) * l p) = Real.exp (-mg) * ∑ p, L p := by
    rw [Finset.mul_sum]
    refine Finset.sum_congr rfl fun p _ => ?_
    rw [← hLp p, sub_eq_add_neg, Real.exp_add]
    ring
  have hne : Real.exp (-mg) * ∑ p, L p ≠ 0 := mul_ne_zero (Real.exp_ne_zero _) hL
  unfold merge
  rw [hnum, hden, hnumR, hdenR, Ideal.div_coe hne, ← EReal.coe_mul]
  congr 1
  have hg := Real.exp_ne_zero (-mg)
  field_simp

/-- The state's maximum is real once it holds. -/
theorem State.Holds.isReal_m {F : ℕ} {s : State F} {L : ℝ} {A : Fin F → ℝ} (h : s.Holds L A) : IsReal s.m := by
  obtain ⟨m, _, _, hm, _⟩ := h; exact ⟨m, hm⟩

end Cert.Attention

end
-- ==== Proof.RefEnergy.lean ====
/-
  The first eighteen stages of the whole-array program, read one entry at a time: three affine layers
  x·Wᵀ + b (a product against the transposed weight matrix plus a bias row broadcast down the rows), two of
  them rectified by a maximum with zero, the entrywise product of the first rectified layer with the third
  layer, and its sum along the features. At row n that sum is the energy e(n) of the specification. Nothing
  here needs the entries to be finite: every step is an identity between extended reals.
-/
import proofs.«168512_j14955076125142_2_alg».proof.Proof.RefImports
import proofs.«168512_j14955076125142_2_alg».proof.Proof.Spec
import Idealize.ShloMosaic.Lib.ValueIdx
import Idealize.ShloMosaic.Lib.Pipeline.Value
import Idealize.ShloMosaic.PureOps.Ideal.Laws

noncomputable section

namespace Cert.RefEnergy

open Idealize.ShloMosaic Idealize.ShloMosaic.ValueIdx Cert.Attention
open Cert.ReferenceIdeal Cert.ReferenceIdeal.Read
open scoped BigOperators

/-! ## Indices -/

/-- Two matrix indices with the same two coordinates are equal. -/
theorem idx2_ext {n0 n1 : ℕ} (i j : (⟨2, ![n0, n1]⟩ : Shape).Idx) (h0 : (i 0).val = (j 0).val)
    (h1 : (i 1).val = (j 1).val) : i = j :=
  funext fun a => Fin.ext (by match a with | ⟨0, _⟩ => exact h0 | ⟨1, _⟩ => exact h1)

/-- Two vector indices with the same coordinate are equal. -/
theorem idx1_ext {n : ℕ} (i j : (⟨1, ![n]⟩ : Shape).Idx) (h0 : (i 0).val = (j 0).val) : i = j :=
  funext fun a => Fin.ext (by match a with | ⟨0, _⟩ => exact h0)

variable (x0 x1 : (⟨S65536x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-! ## The first layer: query·W0ᵀ + b0, rectified -/

/-- The product against the transposed weights: entry (n, f) is Σ_k query(n,k)·W0(f,k). -/
theorem v1_at (n : Fin 65536) (f : Fin 1024) :
    val_main_v1 (F := Ideal) x1 x3 (ix2 n f) = ∑ k : Fin 1024, x1 (ix2 n k) * x3 (ix2 f k) := by
  rw [val_main_v1_apply]
  refine Finset.sum_congr rfl fun k _ => ?_
  rw [val_main_v0_apply]
  exact congrArg₂ (· * ·) (congrArg x1 (idx2_ext _ _ (by rfl) (by rfl))) (congrArg x3 (idx2_ext _ _ (by rfl) (by rfl)))

/-- With the bias row added: the affine layer of the specification. -/
theorem v4_at (n : Fin 65536) (f : Fin 1024) :
    val_main_v4 (F := Ideal) x1 x3 x4 (ix2 n f)
      = affine (fun n k => x1 (ix2 n k)) (fun g k => x3 (ix2 g k)) (fun g => x4 (ix1 g)) n f := by
  rw [val_main_v4_apply, v1_at, val_main_v3_apply, val_main_v2_apply]
  exact congrArg (_ + ·) (congrArg x4 (idx1_ext _ _ (by rfl)))

/-- Rectified: the maximum with zero. -/
theorem v5_at (n : Fin 65536) (f : Fin 1024) :
    val_main_v5 (F := Ideal) x1 x3 x4 (ix2 n f)
      = max (affine (fun n k => x1 (ix2 n k)) (fun g k => x3 (ix2 g k)) (fun g => x4 (ix1 g)) n f) 0 := by
  rw [val_main_v5_apply, v4_at, val_main_call0_v0_apply, val_main_call0_cst_apply]
  exact congrArg (max _) Ideal.ofBits_zero_f32

/-! ## The second layer: key·W1ᵀ + b1, rectified -/

theorem v7_at (n : Fin 65536) (f : Fin 1024) :
    val_main_v7 (F := Ideal) x0 x5 (ix2 n f) = ∑ k : Fin 1024, x0 (ix2 n k) * x5 (ix2 f k) := by
  rw [val_main_v7_apply]
  refine Finset.sum_congr rfl fun k _ => ?_
  rw [val_main_v6_apply]
  exact congrArg₂ (· * ·) (congrArg x0 (idx2_ext _ _ (by rfl) (by rfl))) (congrArg x5 (idx2_ext _ _ (by rfl) (by rfl)))

theorem v10_at (n : Fin 65536) (f : Fin 1024) :
    val_main_v10 (F := Ideal) x0 x5 x6 (ix2 n f)
      = affine (fun n k => x0 (ix2 n k)) (fun g k => x5 (ix2 g k)) (fun g => x6 (ix1 g)) n f := by
  rw [val_main_v10_apply, v7_at, val_main_v9_apply, val_main_v8_apply]
  exact congrArg (_ + ·) (congrArg x6 (idx1_ext _ _ (by rfl)))

theorem v11_at (n : Fin 65536) (f : Fin 1024) :
    val_main_v11 (F := Ideal) x0 x5 x6 (ix2 n f)
      = max (affine (fun n k => x0 (ix2 n k)) (fun g k => x5 (ix2 g k)) (fun g => x6 (ix1 g)) n f) 0 := by
  rw [val_main_v11_apply, v10_at, val_main_call1_v0_apply, val_main_call1_cst_apply]
  exact congrArg (max _) Ideal.ofBits_zero_f32

/-! ## The third layer, applied to the rectified second layer -/

theorem v13_at (n : Fin 65536) (f : Fin 1024) :
    val_main_v13 (F := Ideal) x0 x5 x6 x7 (ix2 n f)
      = ∑ k : Fin 1024,
          max (affine (fun n k => x0 (ix2 n k)) (fun g k => x5 (ix2 g k)) (fun g => x6 (ix1 g)) n k) 0 * x7 (ix2 f k) := by
  rw [val_main_v13_apply]
  refine Finset.sum_congr rfl fun k _ => ?_
  rw [val_main_v12_apply, show lidx_main_v13 (ix2 n f) k = ix2 n k from idx2_ext _ _ (by rfl) (by rfl), v11_at]
  exact congrArg (_ * ·) (congrArg x7 (idx2_ext _ _ (by rfl) (by rfl)))

theorem v16_at (n : Fin 65536) (f : Fin 1024) :
    val_main_v16 (F := Ideal) x0 x5 x6 x7 x8 (ix2 n f)
      = affine (fun n' k => max (affine (fun n k => x0 (ix2 n k)) (fun g k => x5 (ix2 g k)) (fun g => x6 (ix1 g)) n' k) 0)
          (fun g k => x7 (ix2 g k)) (fun g => x8 (ix1 g)) n f := by
  rw [val_main_v16_apply, v13_at, val_main_v15_apply, val_main_v14_apply]
  exact congrArg (_ + ·) (congrArg x8 (idx1_ext _ _ (by rfl)))

/-! ## The energies -/

/-- The sum along the features of the product of the first rectified layer with the third layer is the energy of the
    specification: `key` is the program's first argument and feeds the W1 layer, `query` its second and feeds the W0 layer. -/
theorem energies_at (n : Fin 65536) :
    val_main_v18 (F := Ideal) x0 x1 x3 x4 x5 x6 x7 x8 (ix1 n)
      = energy (fun n k => x0 (ix2 n k)) (fun n k => x1 (ix2 n k)) (fun g k => x3 (ix2 g k)) (fun g k => x5 (ix2 g k))
          (fun g k => x7 (ix2 g k)) (fun g => x4 (ix1 g)) (fun g => x6 (ix1 g)) (fun g => x8 (ix1 g)) n := by
  rw [val_main_v18_apply, val_main_cst_apply]
  refine (congrArg (· + _) Ideal.ofBits_zero_f32).trans ((zero_add _).trans ?_)
  unfold energy
  refine Finset.sum_congr rfl fun f _ => ?_
  rw [show idx_main_v18 (ix1 n) f = ix2 n f from idx2_ext _ _ (by rfl) (by rfl), val_main_v17_apply, v5_at, v16_at]
  rfl

end Cert.RefEnergy

end
-- ==== Proof.RefMax.lean ====
/-
  The maximum of the energies, as the whole-array program forms it: a reduction by `max` of the vector of
  energies over its one axis, started from −∞, and then once more the maximum with −∞. A reduction over every axis
  of a vector runs over all its entries, so the result is the fold of `max` from −∞ over the rows; the second
  maximum with −∞ changes nothing. Also here: sums and folds over the indices of a vector, rewritten as sums and
  folds over the rows.
-/
import proofs.«168512_j14955076125142_2_alg».proof.Proof.RefImports
import proofs.«168512_j14955076125142_2_alg».proof.Proof.Spec
import proofs.«168512_j14955076125142_2_alg».proof.Proof.RefEnergy
import Idealize.ShloMosaic.Lib.ValueIdx
import Idealize.ShloMosaic.Lib.Pipeline.Value
import Idealize.ShloMosaic.PureOps.Ideal.Laws

noncomputable section

namespace Cert.RefMax

open Idealize.ShloMosaic Idealize.ShloMosaic.ValueIdx Cert.Attention
open Cert.ReferenceIdeal Cert.ReferenceIdeal.Read
open scoped BigOperators

/-! ## The indices of a vector are its rows -/

/-- A vector's indices correspond one to one to its coordinates. -/
def idx1Equiv (n : ℕ) : Fin n ≃ (⟨1, ![n]⟩ : Shape).Idx where
  toFun := ix1
  invFun j := j 0
  left_inv _ := rfl
  right_inv j := (eq_ix1 j).symm

/-- A sum over a vector's indices is the sum over its coordinates. -/
theorem sum_idx1 {M : Type*} [AddCommMonoid M] {n : ℕ} (g : (⟨1, ![n]⟩ : Shape).Idx → M) :
    ∑ j, g j = ∑ k : Fin n, g (ix1 k) :=
  ((idx1Equiv n).sum_comp g).symm

/-- A fold over a vector's indices is the fold over its coordinates. -/
theorem fold_idx1 {α : Type*} (op : α → α → α) [Std.Commutative op] [Std.Associative op] (b : α) {n : ℕ}
    (g : (⟨1, ![n]⟩ : Shape).Idx → α) :
    (Finset.univ : Finset (⟨1, ![n]⟩ : Shape).Idx).fold op b g
      = (Finset.univ : Finset (Fin n)).fold op b (fun k => g (ix1 k)) := by
  rw [← Finset.map_univ_equiv (idx1Equiv n), Finset.fold_map]
  rfl

/-! ## A reduction by `max` of a vector to a scalar -/

/-- The word of −∞ denotes the bottom of the extended reals. -/
theorem ofBits_neg_inf : Ideal.ofBits .f32 0xFF800000#32 = (⊥ : EReal) := by
  simp [Ideal.ofBits, Ideal.ieee]

/-- The host's reduction by `max` of a vector over its one axis: the fold of `max`, from the initial value, over all
    the entries. Every index of the vector drops to the one index of the scalar result. -/
theorem hostMax_all {φ : FTy} {n : ℕ} {u : Shape} (x : FVec Ideal ⟨1, ![n]⟩ φ) (init : u.Idx → Ideal φ)
    (h' : (⟨1, ![n]⟩ : Shape).ReducesTo [0] ⟨0, ![]⟩) (hu : 0 < u.numel) (i : (⟨0, ![]⟩ : Shape).Idx) :
    Host.reduce (FloatOps.maximumf (F := Ideal) (φ := φ)) x init h' hu i
      = (Finset.univ : Finset (Fin n)).fold max (init (Shape.Idx.first hu)) (fun k => x (ix1 k)) := by
  rw [Host.reduce_eq_fold, Finset.filter_true_of_mem]
  · exact fold_idx1 max _ x
  · intro j _
    exact funext fun b => b.elim0

variable (x0 x1 : (⟨S65536x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-- The program's maximum stage: if row n of the energies stage is E n, the shifted maximum is the fold of `max` from
    −∞ over E. -/
theorem max_at (E : Fin 65536 → EReal)
    (hE : ∀ n, val_main_v18 (F := Ideal) x0 x1 x3 x4 x5 x6 x7 x8 (ix1 n) = E n) (i : S_.Idx) :
    val_main_v20 (F := Ideal) x0 x1 x3 x4 x5 x6 x7 x8 i = (Finset.univ : Finset (Fin 65536)).fold max ⊥ E := by
  rw [val_main_v20_apply, val_main_cst_1_apply]
  have h19 : val_main_v19 (F := Ideal) x0 x1 x3 x4 x5 x6 x7 x8 i = (Finset.univ : Finset (Fin 65536)).fold max ⊥ E := by
    unfold val_main_v19
    refine (hostMax_all _ _ _ _ i).trans ?_
    rw [val_main_cst_0_apply]
    exact congrArg₂ (fun b g => (Finset.univ : Finset (Fin 65536)).fold max b g) ofBits_neg_inf (funext hE)
  rw [h19]
  exact (congrArg (max · _) ofBits_neg_inf).trans (max_eq_right bot_le)

end Cert.RefMax

end
-- ==== Proof.RefValue.lean ====
/-
  The whole-array program read back: for real inputs its result at output feature f is the common value
  `out`. Its stages, in order: the two rectified projections and the third affine layer (matrix products
  against transposed weights plus a bias row), their product summed along the features (the energies), the
  maximum of the energies taken from −∞ and once more against −∞, the exponentials of the shifted energies,
  their sum, the quotient, and the contraction of the weights with `value`.
-/
import proofs.«168512_j14955076125142_2_alg».proof.Proof.RefImports
import proofs.«168512_j14955076125142_2_alg».proof.Proof.Spec
import proofs.«168512_j14955076125142_2_alg».proof.Proof.SoftmaxAlgebra
import proofs.«168512_j14955076125142_2_alg».proof.Proof.RefEnergy
import proofs.«168512_j14955076125142_2_alg».proof.Proof.RefMax
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.Attention
open Cert.ReferenceIdeal Cert.ReferenceIdeal.Read
open scoped BigOperators

section Stages

variable (x0 x1 x2 : (⟨S65536x1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (E : Fin 65536 → EReal) (hE : ∀ n, val_main_v18 (F := Ideal) x0 x1 x3 x4 x5 x6 x7 x8 (ix1 n) = E n)

include hE

/-- The exponentials: row n holds exp(E n − M), M the maximum of the energies. -/
theorem exp_at (n : Fin 65536) :
    val_main_v24 (F := Ideal) x0 x1 x3 x4 x5 x6 x7 x8 (ix1 n)
      = Ideal.exp (E n - (Finset.univ : Finset (Fin 65536)).fold max ⊥ E) := by
  rw [val_main_v24_apply, val_main_v23_apply, hE, val_main_v22_apply, val_main_v21_apply,
    Cert.RefMax.max_at x0 x1 x3 x4 x5 x6 x7 x8 E hE]
  rfl

/-- The normaliser: the sum of the exponentials over the rows (the sum starts from zero). -/
theorem norm_at (i : S_.Idx) :
    val_main_v25 (F := Ideal) x0 x1 x3 x4 x5 x6 x7 x8 i
      = ∑ n : Fin 65536, Ideal.exp (E n - (Finset.univ : Finset (Fin 65536)).fold max ⊥ E) := by
  rw [val_main_v25_apply, val_main_cst_2_apply]
  refine (congrArg (· + _) Ideal.ofBits_zero_f32).trans ((zero_add _).trans ?_)
  refine (Cert.RefMax.sum_idx1 _).trans (Finset.sum_congr rfl fun n _ => ?_)
  exact exp_at x0 x1 x3 x4 x5 x6 x7 x8 E hE n

/-- The weights: each exponential divided by the normaliser. -/
theorem weight_at (n : Fin 65536) :
    val_main_v28 (F := Ideal) x0 x1 x3 x4 x5 x6 x7 x8 (ix1 n)
      = Ideal.div (Ideal.exp (E n - (Finset.univ : Finset (Fin 65536)).fold max ⊥ E))
          (∑ n' : Fin 65536, Ideal.exp (E n' - (Finset.univ : Finset (Fin 65536)).fold max ⊥ E)) := by
  rw [val_main_v28_apply, exp_at x0 x1 x3 x4 x5 x6 x7 x8 E hE, val_main_v27_apply, val_main_v26_apply,
    norm_at x0 x1 x3 x4 x5 x6 x7 x8 E hE]
  rfl

/-- The contraction of the weights with `value`: the whole-array form of the weighted average. -/
theorem result_form (f : Fin 1024) :
    val_main_v30 (F := Ideal) x0 x1 x2 x3 x4 x5 x6 x7 x8 (ix2 (0 : Fin 1) f)
      = refForm E ((Finset.univ : Finset (Fin 65536)).fold max ⊥ E) (fun n f' => x2 (ix2 n f')) f := by
  rw [val_main_v30_apply]
  unfold refForm
  refine Finset.sum_congr rfl fun k _ => ?_
  rw [val_main_v29_apply,
    show idx_main_v29 (lidx_main_v30 (ix2 (0 : Fin 1) f) k) = ix1 k from Cert.RefEnergy.idx1_ext _ _ (by rfl),
    weight_at x0 x1 x3 x4 x5 x6 x7 x8 E hE]
  have hr : ridx_main_v30 (ix2 (0 : Fin 1) f) k = ix2 k f := Cert.RefEnergy.idx2_ext _ _ (by rfl) (by rfl)
  rw [hr]

end Stages

/-- For real energies and values the whole-array form, with the maximum of the energies as its shift, is the plain
    weighted average of the real parts: the maximum of finitely many reals is real, and any real shift cancels. -/
theorem refForm_real {N F : ℕ} (hN : 0 < N) (E : Fin N → EReal) (V : Fin N → Fin F → EReal)
    (hE : ∀ n, IsReal (E n)) (hV : ∀ n f, IsReal (V n f)) (f : Fin F) :
    refForm E ((Finset.univ : Finset (Fin N)).fold max ⊥ E) V f
      = ((softAvg (fun n => (E n).toReal) (fun n f' => (V n f').toReal) f : ℝ) : EReal) := by
  have hM := isReal_fold_max hN E hE
  have e1 : (fun n => (((E n).toReal : ℝ) : EReal)) = E := funext fun n => (hE n).coe_toReal
  have e2 := hM.coe_toReal
  have e3 : (fun n f' => (((V n f').toReal : ℝ) : EReal)) = V :=
    funext fun n => funext fun f' => (hV n f').coe_toReal
  have key := refForm_eq_softAvg hN (fun n => (E n).toReal) ((Finset.univ : Finset (Fin N)).fold max ⊥ E).toReal
    (fun n f' => (V n f').toReal) f
  rw [e1, e2, e3] at key
  exact key

/-- For real inputs the whole-array program's result, read at (0, f), is the common value. -/
theorem result_eq_out
    (x0 x1 x2 : (⟨S65536x1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal))
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (f : Fin 1024) :
    val_main_v30 (F := Ideal) x0 x1 x2 x3 x4 x5 x6 x7 x8 (ix2 (0 : Fin 1) f)
      = out (fun n k => x0 (ix2 n k)) (fun n k => x1 (ix2 n k)) (fun n k => x2 (ix2 n k))
          (fun g k => x3 (ix2 g k)) (fun g k => x5 (ix2 g k)) (fun g k => x7 (ix2 g k))
          (fun g => x4 (ix1 g)) (fun g => x6 (ix1 g)) (fun g => x8 (ix1 g)) f := by
  -- the program's result in the whole-array form, over the energies of the specification
  rw [result_form x0 x1 x2 x3 x4 x5 x6 x7 x8 _ (Cert.RefEnergy.energies_at x0 x1 x3 x4 x5 x6 x7 x8) f]
  -- every entry read by the specification is real
  have hK : ∀ (n : Fin 65536) (k : Fin 1024), IsReal (x0 (ix2 n k)) := fun n k => h0 _
  have hQ : ∀ (n : Fin 65536) (k : Fin 1024), IsReal (x1 (ix2 n k)) := fun n k => h1 _
  have hV : ∀ (n : Fin 65536) (k : Fin 1024), IsReal (x2 (ix2 n k)) := fun n k => h2 _
  have hW0 : ∀ (g k : Fin 1024), IsReal (x3 (ix2 g k)) := fun g k => h3 _
  have hW1 : ∀ (g k : Fin 1024), IsReal (x5 (ix2 g k)) := fun g k => h5 _
  have hWa : ∀ (g k : Fin 1024), IsReal (x7 (ix2 g k)) := fun g k => h7 _
  have hb0 : ∀ g : Fin 1024, IsReal (x4 (ix1 g)) := fun g => h4 _
  have hb1 : ∀ g : Fin 1024, IsReal (x6 (ix1 g)) := fun g => h6 _
  have hba : ∀ g : Fin 1024, IsReal (x8 (ix1 g)) := fun g => h8 _
  -- so the energies are real, and the whole-array form is the plain weighted average
  refine refForm_real (by decide) _ _ ?_ hV f
  intro n
  exact isReal_energy _ _ _ _ _ _ _ _ hK hQ hW0 hW1 hWa hb0 hb1 hba n

end Cert.RefValue

end
-- ==== Proof.KerPieces.lean ====
/-
  What the body leaves in the three output blocks at one grid point, as the body's own arithmetic applied to
  the blocks it found — for any reading of the float operations. At a later tile of a half each output block
  is overwritten once, by the update computed from the blocks found there. At the first tile of a half each is
  written twice: first the empty state (−∞, 0, 0), then the same update computed from that empty state read
  back.
-/
import proofs.«168512_j14955076125142_2_alg».proof.Proof.Gen.KernelIdeal.Frame
import Idealize.ShloMosaic.Lib.Pipeline.Value
import Idealize.ShloMosaic.Lib.Tactic

set_option maxRecDepth 16384

noncomputable section

namespace Cert.KerPieces

open Idealize.ShloMosaic Idealize.ShloMosaic.TcCoe Idealize.SL.Sem Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later tile of a half: the three blocks found are folded in -/

theorem out_B_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : ¬cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) (xo12 xo13 : Vec F S1x1x1 .f32) (xo14 : Vec F S1x1x1024 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay3 (k0_pay14 x1 (k0_pay8 x8) (k0_pay9 x11) (k0_pay10 x0 x5 x3 x4) (k0_pay11 x6) x7 x9 x10 xo12) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem out_B_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : ¬cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) (xo12 xo13 : Vec F S1x1x1 .f32) (xo14 : Vec F S1x1x1024 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay1 (k0_pay15 x1 (k0_pay8 x8) (k0_pay9 x11) (k0_pay10 x0 x5 x3 x4) (k0_pay11 x6) x7 x9 x10 xo12) (k0_pay16 x1 (k0_pay8 x8) (k0_pay9 x11) (k0_pay10 x0 x5 x3 x4) (k0_pay11 x6) x7 x9 x10 xo12) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem out_B_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : ¬cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) (xo12 xo13 : Vec F S1x1x1 .f32) (xo14 : Vec F S1x1x1024 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14 = k0_pay2 (k0_pay7 x2) (k0_pay15 x1 (k0_pay8 x8) (k0_pay9 x11) (k0_pay10 x0 x5 x3 x4) (k0_pay11 x6) x7 x9 x10 xo12) (k0_pay16 x1 (k0_pay8 x8) (k0_pay9 x11) (k0_pay10 x0 x5 x3 x4) (k0_pay11 x6) x7 x9 x10 xo12) xo14 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo12 xo13 xo14)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

/-! ## The first tile of a half: the same update, from the empty state just stored -/

theorem out_A_12 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay3 (k0_pay14 x1 (k0_pay8 x8) (k0_pay9 x11) (k0_pay10 x0 x5 x3 x4) (k0_pay11 x6) x7 x9 x10 k0_pay4) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x1x1) hz3]
  simp only [View.readCov_unit_zero (S := S1x1x1) _ hz3, View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem out_A_13 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay1 (k0_pay15 x1 (k0_pay8 x8) (k0_pay9 x11) (k0_pay10 x0 x5 x3 x4) (k0_pay11 x6) x7 x9 x10 k0_pay4) (k0_pay16 x1 (k0_pay8 x8) (k0_pay9 x11) (k0_pay10 x0 x5 x3 x4) (k0_pay11 x6) x7 x9 x10 k0_pay4) k0_pay5 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x1x1) hz3]
  simp only [View.readCov_unit_zero (S := S1x1x1) _ hz3, View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

theorem out_A_14 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1x1x1 .f32) (harg14 : arg14.IsWhole) (arg15 : Memref sig .tc .vmem S1x1x1 .f32) (harg15 : arg15.IsWhole) (arg16 : Memref sig .tc .vmem S1x1x1024 .f32) (harg16 : arg16.IsWhole) (hc0 : cond0_0 i) (x0 x1 x2 : Vec F S512x1024 .f32) (x3 x4 : Vec F S1024x1024 .bf16) (x5 : Vec F S1x1024 .f32) (x6 x7 : Vec F S1024x1024 .bf16) (x8 : Vec F S1x1024 .f32) (x9 x10 : Vec F S1024x1024 .bf16) (x11 : Vec F S1x1024 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 = k0_pay2 (k0_pay7 x2) (k0_pay15 x1 (k0_pay8 x8) (k0_pay9 x11) (k0_pay10 x0 x5 x3 x4) (k0_pay11 x6) x7 x9 x10 k0_pay4) (k0_pay16 x1 (k0_pay8 x8) (k0_pay9 x11) (k0_pay10 x0 x5 x3 x4) (k0_pay11 x6) x7 x9 x10 k0_pay4) k0_pay6 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11)]
  unfold kernelRun0_A
  dsimp only
  sl_unfold_words
  rw [View.canon_cons_unit_zero (S := S1x1x1024) hz3]
  simp only [View.readCov_unit_zero (S := S1x1x1) _ hz3, View.readCov_unit_zero (S := S1x1x1024) _ hz3, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x1024) hz2, View.ld_unit_zero (S := S1024x1024) hz2, View.ld_unit_zero (S := S1x1024) hz2, View.ld_unit_zero (S := S1x1x1) hz3, View.ld_unit_zero (S := S1x1x1024) hz3]

end Cert.KerPieces

end
-- ==== Proof.KerBlocks.lean ====
/-
  What each input window's block holds at a grid point, on the extended reals.

  The grid has 128 points; point t streams rows 512·t … 512·t + 511 of query, key and value (the three row
  windows move with t). The nine other windows never move: each is a whole array the lines before the region
  wrote — for each of the three weight matrices W its transpose Wᵀ (the "high" block: a change of format is the
  identity here) and Wᵀ − Wᵀ (the "low" block: Wᵀ minus its own narrowing-and-widening), and for each bias
  vector the vector laid out as one row.
-/
import proofs.«168512_j14955076125142_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.KerBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The grid has 128 points. -/
theorem N128 : cfg0.N = 128 := N_0

/-- The row of the whole arrays that local row r of tile t is: 512·t + r. -/
def rowOf (t : Fin cfg0.N) (r : Fin 512) : Fin 65536 :=
  ⟨512 * t.val + r.val, by have h : t.val < 128 := lt_of_lt_of_eq t.isLt N128; have := r.isLt; omega⟩

/-- The printed index maps, decided once over the grid: the three row windows' block index is (t, 0), every
    other input window's is (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## The three row windows -/

/-- The query block at point t is rows 512·t … of `query`. -/
theorem query_block (c : Dev nD) (t : Fin cfg0.N) (r : Fin 512) (k : Fin 1024) :
    (iblk m c 0 t : Vec Ideal S512x1024 .f32) (ix2 r k) = m ((c.tc : Thread nD τ).loc main_arg1) (ix2 (rowOf t r) k) := by
  obtain ⟨⟨e0, e1⟩, -⟩ := idx_facts t
  unfold iblk
  rw [View.read_apply]
  show V m c main_arg1 _ = _
  rw [V_main_arg1]
  congr 1
  funext a
  apply Fin.ext
  match a with
  | ⟨0, _⟩ => show win0_0.index t (0 : Fin 2) * 512 + 1 * r.val = 512 * t.val + r.val; rw [e0]; omega
  | ⟨1, _⟩ => show win0_0.index t (1 : Fin 2) * 1024 + 1 * k.val = k.val; rw [e1]; omega

/-- The key block at point t is rows 512·t … of `key`. -/
theorem key_block (c : Dev nD) (t : Fin cfg0.N) (r : Fin 512) (k : Fin 1024) :
    (iblk m c 1 t : Vec Ideal S512x1024 .f32) (ix2 r k) = m ((c.tc : Thread nD τ).loc main_arg0) (ix2 (rowOf t r) k) := by
  obtain ⟨-, ⟨e0, e1⟩, -⟩ := idx_facts t
  unfold iblk
  rw [View.read_apply]
  show V m c main_arg0 _ = _
  rw [V_main_arg0]
  congr 1
  funext a
  apply Fin.ext
  match a with
  | ⟨0, _⟩ => show win0_1.index t (0 : Fin 2) * 512 + 1 * r.val = 512 * t.val + r.val; rw [e0]; omega
  | ⟨1, _⟩ => show win0_1.index t (1 : Fin 2) * 1024 + 1 * k.val = k.val; rw [e1]; omega

/-- The value block at point t is rows 512·t … of `value`. -/
theorem value_block (c : Dev nD) (t : Fin cfg0.N) (r : Fin 512) (k : Fin 1024) :
    (iblk m c 2 t : Vec Ideal S512x1024 .f32) (ix2 r k) = m ((c.tc : Thread nD τ).loc main_arg2) (ix2 (rowOf t r) k) := by
  obtain ⟨-, -, ⟨e0, e1⟩, -⟩ := idx_facts t
  unfold iblk
  rw [View.read_apply]
  show V m c main_arg2 _ = _
  rw [V_main_arg2]
  congr 1
  funext a
  apply Fin.ext
  match a with
  | ⟨0, _⟩ => show win0_2.index t (0 : Fin 2) * 512 + 1 * r.val = 512 * t.val + r.val; rw [e0]; omega
  | ⟨1, _⟩ => show win0_2.index t (1 : Fin 2) * 1024 + 1 * k.val = k.val; rw [e1]; omega

/-! ## What the lines before the region wrote -/

theorem V_main_v1 (c : Dev nD) : (V m c main_v1 : S1024x1024.Idx → EReal)
    = truncf (F := Ideal) .bf16 (transpose S1024x1024 [1, 0] (m ((c.tc : Thread nD τ).loc main_arg3)) transposes_S1024x1024_S1024x1024_1_0) bitsLt_bf16_f32 := by
  show StableHlo.after hostOps0 (fun b => m (c, b)) (Proc.devRef .tc main_v1) = _
  after_results
  try rfl

theorem V_main_v6 (c : Dev nD) : (V m c main_v6 : S1024x1024.Idx → EReal)
    = truncf (F := Ideal) .bf16 (transpose S1024x1024 [1, 0] (m ((c.tc : Thread nD τ).loc main_arg5)) transposes_S1024x1024_S1024x1024_1_0) bitsLt_bf16_f32 := by
  show StableHlo.after hostOps0 (fun b => m (c, b)) (Proc.devRef .tc main_v6) = _
  after_results
  try rfl

theorem V_main_v11 (c : Dev nD) : (V m c main_v11 : S1024x1024.Idx → EReal)
    = truncf (F := Ideal) .bf16 (transpose S1024x1024 [1, 0] (m ((c.tc : Thread nD τ).loc main_arg7)) transposes_S1024x1024_S1024x1024_1_0) bitsLt_bf16_f32 := by
  show StableHlo.after hostOps0 (fun b => m (c, b)) (Proc.devRef .tc main_v11) = _
  after_results
  try rfl

theorem V_main_v4 (c : Dev nD) : (V m c main_v4 : S1024x1024.Idx → EReal)
    = truncf (F := Ideal) .bf16 (subf (transpose S1024x1024 [1, 0] (m ((c.tc : Thread nD τ).loc main_arg3)) transposes_S1024x1024_S1024x1024_1_0) (extf .f32 (truncf (F := Ideal) .bf16 (transpose S1024x1024 [1, 0] (m ((c.tc : Thread nD τ).loc main_arg3)) transposes_S1024x1024_S1024x1024_1_0) bitsLt_bf16_f32) bitsLt_bf16_f32)) bitsLt_bf16_f32 := by
  show StableHlo.after hostOps0 (fun b => m (c, b)) (Proc.devRef .tc main_v4) = _
  after_results
  try rfl

theorem V_main_v9 (c : Dev nD) : (V m c main_v9 : S1024x1024.Idx → EReal)
    = truncf (F := Ideal) .bf16 (subf (transpose S1024x1024 [1, 0] (m ((c.tc : Thread nD τ).loc main_arg5)) transposes_S1024x1024_S1024x1024_1_0) (extf .f32 (truncf (F := Ideal) .bf16 (transpose S1024x1024 [1, 0] (m ((c.tc : Thread nD τ).loc main_arg5)) transposes_S1024x1024_S1024x1024_1_0) bitsLt_bf16_f32) bitsLt_bf16_f32)) bitsLt_bf16_f32 := by
  show StableHlo.after hostOps0 (fun b => m (c, b)) (Proc.devRef .tc main_v9) = _
  after_results
  try rfl

theorem V_main_v14 (c : Dev nD) : (V m c main_v14 : S1024x1024.Idx → EReal)
    = truncf (F := Ideal) .bf16 (subf (transpose S1024x1024 [1, 0] (m ((c.tc : Thread nD τ).loc main_arg7)) transposes_S1024x1024_S1024x1024_1_0) (extf .f32 (truncf (F := Ideal) .bf16 (transpose S1024x1024 [1, 0] (m ((c.tc : Thread nD τ).loc main_arg7)) transposes_S1024x1024_S1024x1024_1_0) bitsLt_bf16_f32) bitsLt_bf16_f32)) bitsLt_bf16_f32 := by
  show StableHlo.after hostOps0 (fun b => m (c, b)) (Proc.devRef .tc main_v14) = _
  after_results
  try rfl

theorem V_main_v15 (c : Dev nD) : (V m c main_v15 : S1x1024.Idx → EReal)
    = shapeCast S1x1024 (m ((c.tc : Thread nD τ).loc main_arg4)) shapeCasts_S1024_S1x1024 := by
  show StableHlo.after hostOps0 (fun b => m (c, b)) (Proc.devRef .tc main_v15) = _
  after_results
  try rfl

theorem V_main_v16 (c : Dev nD) : (V m c main_v16 : S1x1024.Idx → EReal)
    = shapeCast S1x1024 (m ((c.tc : Thread nD τ).loc main_arg6)) shapeCasts_S1024_S1x1024 := by
  show StableHlo.after hostOps0 (fun b => m (c, b)) (Proc.devRef .tc main_v16) = _
  after_results
  try rfl

theorem V_main_v17 (c : Dev nD) : (V m c main_v17 : S1x1024.Idx → EReal)
    = shapeCast S1x1024 (m ((c.tc : Thread nD τ).loc main_arg8)) shapeCasts_S1024_S1x1024 := by
  show StableHlo.after hostOps0 (fun b => m (c, b)) (Proc.devRef .tc main_v17) = _
  after_results
  try rfl

/-! ## The nine resident windows -/

/-- The high block of this weight matrix is its transpose: entry (k, g) is W(g, k). -/
theorem hi_block_3 (c : Dev nD) (t : Fin cfg0.N) (k g : Fin 1024) :
    (iblk m c 3 t : Vec Ideal S1024x1024 .bf16) (ix2 k g) = m ((c.tc : Thread nD τ).loc main_arg3) (ix2 g k) := by
  obtain ⟨-, -, -, ⟨e0, e1⟩, -⟩ := idx_facts t
  unfold iblk
  rw [View.read_apply]
  show V m c main_v1 _ = _
  have hemb : ((cfg0.win 3).blk t).view.emb (ix2 k g) = ix2 k g := by
    funext a; apply Fin.ext
    match a with
    | ⟨0, _⟩ => show win0_3.index t (0 : Fin 2) * 1024 + 1 * k.val = k.val; rw [e0]; omega
    | ⟨1, _⟩ => show win0_3.index t (1 : Fin 2) * 1024 + 1 * g.val = g.val; rw [e1]; omega
  rw [hemb, V_main_v1]
  exact transpose_ix2_apply _ _ k g

/-- The high block of this weight matrix is its transpose: entry (k, g) is W(g, k). -/
theorem hi_block_6 (c : Dev nD) (t : Fin cfg0.N) (k g : Fin 1024) :
    (iblk m c 6 t : Vec Ideal S1024x1024 .bf16) (ix2 k g) = m ((c.tc : Thread nD τ).loc main_arg5) (ix2 g k) := by
  obtain ⟨-, -, -, -, -, -, ⟨e0, e1⟩, -⟩ := idx_facts t
  unfold iblk
  rw [View.read_apply]
  show V m c main_v6 _ = _
  have hemb : ((cfg0.win 6).blk t).view.emb (ix2 k g) = ix2 k g := by
    funext a; apply Fin.ext
    match a with
    | ⟨0, _⟩ => show win0_6.index t (0 : Fin 2) * 1024 + 1 * k.val = k.val; rw [e0]; omega
    | ⟨1, _⟩ => show win0_6.index t (1 : Fin 2) * 1024 + 1 * g.val = g.val; rw [e1]; omega
  rw [hemb, V_main_v6]
  exact transpose_ix2_apply _ _ k g

/-- The high block of this weight matrix is its transpose: entry (k, g) is W(g, k). -/
theorem hi_block_9 (c : Dev nD) (t : Fin cfg0.N) (k g : Fin 1024) :
    (iblk m c 9 t : Vec Ideal S1024x1024 .bf16) (ix2 k g) = m ((c.tc : Thread nD τ).loc main_arg7) (ix2 g k) := by
  obtain ⟨-, -, -, -, -, -, -, -, -, ⟨e0, e1⟩, -⟩ := idx_facts t
  unfold iblk
  rw [View.read_apply]
  show V m c main_v11 _ = _
  have hemb : ((cfg0.win 9).blk t).view.emb (ix2 k g) = ix2 k g := by
    funext a; apply Fin.ext
    match a with
    | ⟨0, _⟩ => show win0_9.index t (0 : Fin 2) * 1024 + 1 * k.val = k.val; rw [e0]; omega
    | ⟨1, _⟩ => show win0_9.index t (1 : Fin 2) * 1024 + 1 * g.val = g.val; rw [e1]; omega
  rw [hemb, V_main_v11]
  exact transpose_ix2_apply _ _ k g

/-- The low block is the high block minus itself, entry by entry. -/
theorem lo_block_4 (c : Dev nD) (t : Fin cfg0.N) (k g : Fin 1024) (xhi xlo : Vec Ideal S1024x1024 .bf16)
    (hhi : xhi = iblk m c 3 t) (hlo : xlo = iblk m c 4 t) :
    xlo (ix2 k g) = xhi (ix2 k g) - xhi (ix2 k g) := by
  subst hhi hlo
  have e3 : (iblk m c 3 t : Vec Ideal S1024x1024 .bf16) (ix2 k g) = m ((c.tc : Thread nD τ).loc main_arg3) (ix2 g k) := hi_block_3 m c t k g
  rw [e3]
  obtain ⟨-, -, -, -, ⟨e0, e1⟩, -⟩ := idx_facts t
  unfold iblk
  rw [View.read_apply]
  show V m c main_v4 _ = _
  have hemb : ((cfg0.win 4).blk t).view.emb (ix2 k g) = ix2 k g := by
    funext a; apply Fin.ext
    match a with
    | ⟨0, _⟩ => show win0_4.index t (0 : Fin 2) * 1024 + 1 * k.val = k.val; rw [e0]; omega
    | ⟨1, _⟩ => show win0_4.index t (1 : Fin 2) * 1024 + 1 * g.val = g.val; rw [e1]; omega
  rw [hemb, V_main_v4]
  exact congrArg₂ (fun a b : EReal => a - b) (transpose_ix2_apply _ _ k g) (transpose_ix2_apply _ _ k g)

/-- The low block is the high block minus itself, entry by entry. -/
theorem lo_block_7 (c : Dev nD) (t : Fin cfg0.N) (k g : Fin 1024) (xhi xlo : Vec Ideal S1024x1024 .bf16)
    (hhi : xhi = iblk m c 6 t) (hlo : xlo = iblk m c 7 t) :
    xlo (ix2 k g) = xhi (ix2 k g) - xhi (ix2 k g) := by
  subst hhi hlo
  have e3 : (iblk m c 6 t : Vec Ideal S1024x1024 .bf16) (ix2 k g) = m ((c.tc : Thread nD τ).loc main_arg5) (ix2 g k) := hi_block_6 m c t k g
  rw [e3]
  obtain ⟨-, -, -, -, -, -, -, ⟨e0, e1⟩, -⟩ := idx_facts t
  unfold iblk
  rw [View.read_apply]
  show V m c main_v9 _ = _
  have hemb : ((cfg0.win 7).blk t).view.emb (ix2 k g) = ix2 k g := by
    funext a; apply Fin.ext
    match a with
    | ⟨0, _⟩ => show win0_7.index t (0 : Fin 2) * 1024 + 1 * k.val = k.val; rw [e0]; omega
    | ⟨1, _⟩ => show win0_7.index t (1 : Fin 2) * 1024 + 1 * g.val = g.val; rw [e1]; omega
  rw [hemb, V_main_v9]
  exact congrArg₂ (fun a b : EReal => a - b) (transpose_ix2_apply _ _ k g) (transpose_ix2_apply _ _ k g)

/-- The low block is the high block minus itself, entry by entry. -/
theorem lo_block_10 (c : Dev nD) (t : Fin cfg0.N) (k g : Fin 1024) (xhi xlo : Vec Ideal S1024x1024 .bf16)
    (hhi : xhi = iblk m c 9 t) (hlo : xlo = iblk m c 10 t) :
    xlo (ix2 k g) = xhi (ix2 k g) - xhi (ix2 k g) := by
  subst hhi hlo
  have e3 : (iblk m c 9 t : Vec Ideal S1024x1024 .bf16) (ix2 k g) = m ((c.tc : Thread nD τ).loc main_arg7) (ix2 g k) := hi_block_9 m c t k g
  rw [e3]
  obtain ⟨-, -, -, -, -, -, -, -, -, -, ⟨e0, e1⟩, -⟩ := idx_facts t
  unfold iblk
  rw [View.read_apply]
  show V m c main_v14 _ = _
  have hemb : ((cfg0.win 10).blk t).view.emb (ix2 k g) = ix2 k g := by
    funext a; apply Fin.ext
    match a with
    | ⟨0, _⟩ => show win0_10.index t (0 : Fin 2) * 1024 + 1 * k.val = k.val; rw [e0]; omega
    | ⟨1, _⟩ => show win0_10.index t (1 : Fin 2) * 1024 + 1 * g.val = g.val; rw [e1]; omega
  rw [hemb, V_main_v14]
  exact congrArg₂ (fun a b : EReal => a - b) (transpose_ix2_apply _ _ k g) (transpose_ix2_apply _ _ k g)

/-- The bias row: entry (0, g) is the bias vector's entry g. -/
theorem bias_block_5 (c : Dev nD) (t : Fin cfg0.N) (g : Fin 1024) :
    (iblk m c 5 t : Vec Ideal S1x1024 .f32) (ix2 (0 : Fin 1) g) = m ((c.tc : Thread nD τ).loc main_arg4) (ix1 g) := by
  obtain ⟨-, -, -, -, -, ⟨e0, e1⟩, -⟩ := idx_facts t
  unfold iblk
  rw [View.read_apply]
  show V m c main_v15 _ = _
  have hemb : ((cfg0.win 5).blk t).view.emb (ix2 (0 : Fin 1) g) = ix2 (0 : Fin 1) g := by
    funext a; apply Fin.ext
    match a with
    | ⟨0, _⟩ => show win0_5.index t (0 : Fin 2) * 1 + 1 * 0 = 0; rw [e0]
    | ⟨1, _⟩ => show win0_5.index t (1 : Fin 2) * 1024 + 1 * g.val = g.val; rw [e1]; omega
  rw [hemb, V_main_v15]
  exact shapeCast_a_1a_apply _ _ (0 : Fin 1) g

/-- The bias row: entry (0, g) is the bias vector's entry g. -/
theorem bias_block_8 (c : Dev nD) (t : Fin cfg0.N) (g : Fin 1024) :
    (iblk m c 8 t : Vec Ideal S1x1024 .f32) (ix2 (0 : Fin 1) g) = m ((c.tc : Thread nD τ).loc main_arg6) (ix1 g) := by
  obtain ⟨-, -, -, -, -, -, -, -, ⟨e0, e1⟩, -⟩ := idx_facts t
  unfold iblk
  rw [View.read_apply]
  show V m c main_v16 _ = _
  have hemb : ((cfg0.win 8).blk t).view.emb (ix2 (0 : Fin 1) g) = ix2 (0 : Fin 1) g := by
    funext a; apply Fin.ext
    match a with
    | ⟨0, _⟩ => show win0_8.index t (0 : Fin 2) * 1 + 1 * 0 = 0; rw [e0]
    | ⟨1, _⟩ => show win0_8.index t (1 : Fin 2) * 1024 + 1 * g.val = g.val; rw [e1]; omega
  rw [hemb, V_main_v16]
  exact shapeCast_a_1a_apply _ _ (0 : Fin 1) g

/-- The bias row: entry (0, g) is the bias vector's entry g. -/
theorem bias_block_11 (c : Dev nD) (t : Fin cfg0.N) (g : Fin 1024) :
    (iblk m c 11 t : Vec Ideal S1x1024 .f32) (ix2 (0 : Fin 1) g) = m ((c.tc : Thread nD τ).loc main_arg8) (ix1 g) := by
  obtain ⟨-, -, -, -, -, -, -, -, -, -, -, ⟨e0, e1⟩⟩ := idx_facts t
  unfold iblk
  rw [View.read_apply]
  show V m c main_v17 _ = _
  have hemb : ((cfg0.win 11).blk t).view.emb (ix2 (0 : Fin 1) g) = ix2 (0 : Fin 1) g := by
    funext a; apply Fin.ext
    match a with
    | ⟨0, _⟩ => show win0_11.index t (0 : Fin 2) * 1 + 1 * 0 = 0; rw [e0]
    | ⟨1, _⟩ => show win0_11.index t (1 : Fin 2) * 1024 + 1 * g.val = g.val; rw [e1]; omega
  rw [hemb, V_main_v17]
  exact shapeCast_a_1a_apply _ _ (0 : Fin 1) g

end Cert.KerBlocks

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.TileEnergy.lean ====
/-
  One tile of 512 rows inside the streamed program, on the extended reals: the rectified projection and the
  tile's energies, read one entry at a time from the blocks the body loads.

  A matrix product is formed in three passes from the two-term splitting of its left operand a (high part a,
  low part a − a) against a high and a low block of the right operand:
      a·B_hi + a·B_lo + (a − a)·B_hi,
  each pass a contraction over the 1024 features into a zero accumulator. Adding the bias row and rectifying
  gives the projection; the energies are the row sums of the first projection times the affine image of the
  second. With W(f,k) the entry B_hi(k,f) of the high block, and the low block equal to B_hi − B_hi entry by
  entry, these are the three-pass layers `affine3` and the energy `energy3` of the tile's rows.
-/
import proofs.«168512_j14955076125142_2_alg».proof.Proof.Gen.KernelIdeal.Skeleton
import proofs.«168512_j14955076125142_2_alg».proof.Proof.Spec
import proofs.«168512_j14955076125142_2_alg».proof.Proof.LibMatmul2d
import proofs.«168512_j14955076125142_2_alg».proof.Proof.LibRowwise
import Idealize.ShloMosaic.Lib.ValueIdx
import Idealize.ShloMosaic.Lib.ValueLayout
import Idealize.ShloMosaic.Lib.Pipeline.Value
import Idealize.ShloMosaic.PureOps.Ideal.Laws

noncomputable section

namespace Cert.TileValue

open Idealize.ShloMosaic Idealize.ShloMosaic.ValueIdx Cert.KernelIdeal Cert.KernelIdeal.Gen Cert.Attention
open scoped BigOperators

/-- The zero word is the real number 0. -/
theorem ofBits_zero : Ideal.ofBits .f32 0x00000000#32 = (0 : EReal) := Ideal.ofBits_zero_f32

/-- Three passes against a high and a low block, read at (r, f): three contractions over the features. -/
theorem three_pass_apply (a : FVec Ideal S512x1024 .f32) (bhi blo : FVec Ideal S1024x1024 .bf16) (r : Fin 512) (f : Fin 1024) :
    addf (addf
        (matmul dot_S512x1024_S1024x1024_S512x1024_1_0_0_1_n_n none (truncf .bf16 a bitsLt_bf16_f32) bhi (constant S512x1024 .f32 0x00000000#32))
        (matmul dot_S512x1024_S1024x1024_S512x1024_1_0_0_1_n_n none (truncf .bf16 a bitsLt_bf16_f32) blo (constant S512x1024 .f32 0x00000000#32)))
        (matmul dot_S512x1024_S1024x1024_S512x1024_1_0_0_1_n_n none (truncf .bf16 (subf a a) bitsLt_bf16_f32) bhi (constant S512x1024 .f32 0x00000000#32))
      (ix2 r f)
      = (∑ k : Fin 1024, a (ix2 r k) * bhi (ix2 k f)) + (∑ k : Fin 1024, a (ix2 r k) * blo (ix2 k f))
          + (∑ k : Fin 1024, (a (ix2 r k) - a (ix2 r k)) * bhi (ix2 k f)) := by
  refine congrArg₂ (· + ·) (congrArg₂ (· + ·) ?_ ?_) ?_
  · exact Cert.LibMatmul2d.matmul_plain_apply (M := 512) (K := 1024) (N := 1024) _ _ r f
  · exact Cert.LibMatmul2d.matmul_plain_apply (M := 512) (K := 1024) (N := 1024) _ _ r f
  · exact Cert.LibMatmul2d.matmul_plain_apply (M := 512) (K := 1024) (N := 1024) _ _ r f

/-- A layer of the tile: three passes, the bias row added to every row. With W(f,k) = B_hi(k,f) and the low
    block B_hi − B_hi, this is the three-pass affine layer. -/
theorem layer_apply (a : FVec Ideal S512x1024 .f32) (bhi blo : FVec Ideal S1024x1024 .bf16) (b : FVec Ideal S1x1024 .f32)
    (hlo : ∀ k f, blo (ix2 k f) = bhi (ix2 k f) - bhi (ix2 k f)) (r : Fin 512) (f : Fin 1024) :
    addf (addf (addf
        (matmul dot_S512x1024_S1024x1024_S512x1024_1_0_0_1_n_n none (truncf .bf16 a bitsLt_bf16_f32) bhi (constant S512x1024 .f32 0x00000000#32))
        (matmul dot_S512x1024_S1024x1024_S512x1024_1_0_0_1_n_n none (truncf .bf16 a bitsLt_bf16_f32) blo (constant S512x1024 .f32 0x00000000#32)))
        (matmul dot_S512x1024_S1024x1024_S512x1024_1_0_0_1_n_n none (truncf .bf16 (subf a a) bitsLt_bf16_f32) bhi (constant S512x1024 .f32 0x00000000#32)))
        (broadcastTo S512x1024 b broadcasts_S1x1024_S512x1024)
      (ix2 r f)
      = affine3 (fun (n : Fin 512) (k : Fin 1024) => a (ix2 n k)) (fun (g : Fin 1024) (k : Fin 1024) => bhi (ix2 k g))
          (fun g => b (ix2 (0 : Fin 1) g)) r f := by
  refine (congrArg₂ (· + ·) (three_pass_apply a bhi blo r f) (broadcastTo_1b_ab_apply b _ r f)).trans ?_
  unfold affine3
  simp only [hlo]

/-- The rectified first projection of the tile at (r, f). -/
theorem rectified_apply (x0 : Vec Ideal S512x1024 .f32) (x5 : Vec Ideal S1x1024 .f32) (x3 x4 : Vec Ideal S1024x1024 .bf16)
    (hlo : ∀ k f, x4 (ix2 k f) = x3 (ix2 k f) - x3 (ix2 k f)) (r : Fin 512) (f : Fin 1024) :
    k0_pay10 (F := Ideal) x0 x5 x3 x4 (ix2 r f)
      = max (affine3 (fun (n : Fin 512) (k : Fin 1024) => x0 (ix2 n k)) (fun (g : Fin 1024) (k : Fin 1024) => x3 (ix2 k g))
          (fun g => x5 (ix2 (0 : Fin 1) g)) r f) 0 := by
  unfold k0_pay10
  simp only [shapeCast_self]
  refine (congrArg₂ max (layer_apply x0 x3 x4 x5 hlo r f) ?_)
  exact ofBits_zero

/-- The tile's energies, read at row r: the row sum of the first projection times the three-pass affine
    image of the rectified second projection. `kenc` is the first projection whatever it is; the second
    projection's layer is formed here from the key block a, the high and low blocks of its weights and its bias
    row, and the third layer from its own blocks. -/
theorem energies_apply (a : Vec Ideal S512x1024 .f32) (b1row barow : FVec Ideal S1x1024 .f32) (kenc : FVec Ideal S512x1024 .f32)
    (w1hi : FVec Ideal S1024x1024 .bf16) (w1lo wahi walo : Vec Ideal S1024x1024 .bf16)
    (hlo1 : ∀ k f, w1lo (ix2 k f) = w1hi (ix2 k f) - w1hi (ix2 k f))
    (hloa : ∀ k f, walo (ix2 k f) = wahi (ix2 k f) - wahi (ix2 k f)) (r : Fin 512) :
    k0_pay12 (F := Ideal) a b1row barow kenc w1hi w1lo wahi walo (ix2 r (0 : Fin 1))
      = ∑ f : Fin 1024, kenc (ix2 r f)
          * affine3 (fun (n : Fin 512) (k : Fin 1024) =>
                max (affine3 (fun (n' : Fin 512) (k' : Fin 1024) => a (ix2 n' k')) (fun (g : Fin 1024) (k' : Fin 1024) => w1hi (ix2 k' g))
                  (fun g => b1row (ix2 (0 : Fin 1) g)) n k) 0)
              (fun (g : Fin 1024) (k : Fin 1024) => wahi (ix2 k g)) (fun g => barow (ix2 (0 : Fin 1) g)) r f := by
  unfold k0_pay12
  simp only [shapeCast_self]
  refine (Cert.LibRowwise.shapeCast_a_a1_apply _ _ r 0).trans ?_
  refine (Cert.LibRowwise.rowSum_apply _ _ _ _ _ r).trans ?_
  refine Finset.sum_congr rfl fun f _ => ?_
  refine congrArg₂ (· * ·) rfl ?_
  refine (layer_apply _ wahi walo barow hloa r f).trans ?_
  refine congrArg (fun X => affine3 X (fun (g : Fin 1024) (k : Fin 1024) => wahi (ix2 k g)) (fun g => barow (ix2 (0 : Fin 1) g)) r f) ?_
  funext n k
  exact congrArg₂ max (layer_apply a w1hi w1lo b1row hlo1 n k) ofBits_zero

/-- Putting the two together: with the first projection formed from the query block, the tile's energies are
    the three-pass energies of the tile's 512 rows. -/
theorem tile_energy (x0 x1 : Vec Ideal S512x1024 .f32) (x3 x4 : Vec Ideal S1024x1024 .bf16) (x5 : Vec Ideal S1x1024 .f32)
    (x6 x7 : Vec Ideal S1024x1024 .bf16) (x8 : Vec Ideal S1x1024 .f32) (x9 x10 : Vec Ideal S1024x1024 .bf16)
    (x11 : Vec Ideal S1x1024 .f32)
    (hlo0 : ∀ k f, x4 (ix2 k f) = x3 (ix2 k f) - x3 (ix2 k f))
    (hlo1 : ∀ k f, x7 (ix2 k f) = x6 (ix2 k f) - x6 (ix2 k f))
    (hloa : ∀ k f, x10 (ix2 k f) = x9 (ix2 k f) - x9 (ix2 k f)) (r : Fin 512) :
    k0_pay12 (F := Ideal) x1 (k0_pay8 x8) (k0_pay9 x11) (k0_pay10 x0 x5 x3 x4) (k0_pay11 x6) x7 x9 x10 (ix2 r (0 : Fin 1))
      = energy3 (fun (n : Fin 512) (k : Fin 1024) => x1 (ix2 n k)) (fun (n : Fin 512) (k : Fin 1024) => x0 (ix2 n k))
          (fun (g : Fin 1024) (k : Fin 1024) => x3 (ix2 k g)) (fun (g : Fin 1024) (k : Fin 1024) => x6 (ix2 k g))
          (fun (g : Fin 1024) (k : Fin 1024) => x9 (ix2 k g))
          (fun g => x5 (ix2 (0 : Fin 1) g)) (fun g => x8 (ix2 (0 : Fin 1) g)) (fun g => x11 (ix2 (0 : Fin 1) g)) r := by
  have h8 : k0_pay8 (F := Ideal) x8 = x8 := shapeCast_self _ _
  have h9 : k0_pay9 (F := Ideal) x11 = x11 := shapeCast_self _ _
  have h11 : k0_pay11 (F := Ideal) x6 = x6 := shapeCast_self _ _
  rw [h8, h9, h11]
  refine (energies_apply x1 x8 x11 _ x6 x7 x9 x10 hlo1 hloa r).trans ?_
  unfold energy3
  refine Finset.sum_congr rfl fun f _ => ?_
  exact congrArg₂ (· * ·) (rectified_apply x0 x5 x3 x4 hlo0 r f) rfl

end Cert.TileValue

end
-- ==== Proof.LibMaxAxes.lean ====
/-
  Maxima of an array along an axis that is not the last, at the exact instance and for any extents.

  On the extended reals a maximum-reduction is the fold of `max` from the starting value over the coordinates of the
  reduced axis. Read at an index written by coordinates: the vector unit's maximum of a matrix over its FIRST axis at
  a column (a maximum down the rows), and the host's maximum of a rank-three array over its MIDDLE axis at `(p, q)`.
  The reduced index with a coordinate put back on the dropped axis is `(coordinate, column)`, respectively
  `(p, coordinate, q)`. And one order fact: taking the maximum of a fold of `max` with its own starting value changes
  nothing, since the starting value is below the fold.
-/
import Idealize.ShloMosaic.Lib.ValueIdx
import Idealize.ShloMosaic.PureOps.Ideal.Laws

noncomputable section

namespace Cert.LibMaxAxes

open Idealize.ShloMosaic Idealize.ShloMosaic.ValueIdx

/-- Column `c` with the coordinate `k` put back on the dropped first axis is the matrix index `(k, c)`. -/
theorem lift_firstAxis {a b : ℕ} (h : (⟨2, ![a, b]⟩ : Shape).Reduces [0] ⟨1, ![b]⟩) (c : Fin b) (k : Fin a) :
    h.lift (ix1 c) k = ix2 k c := by
  funext d
  apply Fin.ext
  show h.liftVal (ix1 c) k.val d = _
  unfold Shape.Reduces.liftVal
  match d with
  | ⟨0, _⟩ => exact dif_pos (show (0 : ℕ) = 0 from rfl)
  | ⟨1, _⟩ => exact (dif_neg (show ¬((1 : ℕ) = 0) by omega)).trans (dif_neg (show ¬((1 : ℕ) < 0) by omega))

/-- The index `(p, q)` with the coordinate `k` put back on the dropped middle axis is `(p, k, q)`. -/
theorem lift_midAxis3 {a n b : ℕ} (h : (⟨3, ![a, n, b]⟩ : Shape).Reduces [1] ⟨2, ![a, b]⟩) (p : Fin a) (q : Fin b) (k : Fin n) :
    h.lift (ix2 p q) k = ix3 p k q := by
  funext c
  apply Fin.ext
  show h.liftVal (ix2 p q) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)
  | ⟨2, _⟩ => exact (dif_neg (show ¬((2 : ℕ) = 1) by omega)).trans (dif_neg (show ¬((2 : ℕ) < 1) by omega))

/-- The vector unit's maximum of a matrix over its FIRST axis, at column `c`: the fold of `max` over the column's
    entries, from the accumulator's value. -/
theorem colMax_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) :=
  (Ideal.multiReduction_maximumf_single src acc h hφ hacc (ix1 c)).trans
    (congrArg (fun f => (Finset.univ : Finset (Fin a)).fold max (Ideal.ofBits φ acc) f)
      (funext fun k => congrArg src (lift_firstAxis h c k)))

/-- The host's maximum of an `[a, n, b]` array over its middle axis, at `(p, q)`: the fold of `max` over the entries
    `x (p, k, q)`, from the initial value. -/
theorem hostMax_midAxis3_apply {φ : FTy} {a n b : ℕ} {u : Shape} (x : FVec Ideal ⟨3, ![a, n, b]⟩ φ) (init : u.Idx → Ideal φ)
    (h' : (⟨3, ![a, n, b]⟩ : Shape).ReducesTo [1] ⟨2, ![a, b]⟩) (h : (⟨3, ![a, n, b]⟩ : Shape).Reduces [1] ⟨2, ![a, b]⟩)
    (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) :=
  (Host.reduce_eq_fold_single (FloatOps.maximumf (F := Ideal) (φ := φ)) x init h' h hu (ix2 p q)).trans
    (congrArg (fun f => (Finset.univ : Finset (Fin n)).fold max (init (Shape.Idx.first hu)) f)
      (funext fun k => congrArg x (lift_midAxis3 h p q k)))

/-- The starting value of a fold of `max` is below the fold, so taking the maximum with it again changes nothing. -/
theorem max_fold_max_self {ι : Type*} (s : Finset ι) (b : EReal) (f : ι → EReal) :
    max b (s.fold max b f) = s.fold max b f :=
  max_eq_right (Finset.le_fold_max (b := b) (f := f) (s := s) b |>.mpr (Or.inl le_rfl))

end Cert.LibMaxAxes

end
-- ==== Proof.LibAxisSums.lean ====
/-
  Sums along one axis of an array of extended reals, read at an index, for any extents.

  On the extended reals a float sum is the exact sum, so the vector unit's reduction of one axis is, at every index
  of the result, the finite sum of the operand over that axis's coordinate with the other coordinates held fixed.
  The statements below spell this out with the indices written by coordinates for the four layouts a masked
  per-cell sum goes through — the channel axis of [a, c, h, w], the last axis of [a, h, w], the last axis of [a, h]
  and the leading axis of [a, b] — together with two casts that only insert or remove an axis of extent one, and the
  fact that a sum over all indices of a rank-3 array is the triple sum over its coordinates.
  Nothing here needs an entry to be finite: only that addition is commutative and associative.
-/
import Idealize.ShloMosaic.Lib.ValueIdx
import Idealize.ShloMosaic.Lib.Pipeline.Value
import Idealize.ShloMosaic.PureOps.Ideal.Laws

noncomputable section

namespace Cert.LibAxisSums

open Idealize.ShloMosaic Idealize.ShloMosaic.ValueIdx
open scoped BigOperators

/-! ## All indices of a rank-3 array -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in any additive commutative monoid. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One axis summed by the vector unit, at Ideal -/

variable {φ : FTy}

/-- Axis 1 (the channels) of an [a, c, h, w] array summed: at (p, q, r) the sum over the channel k of the entry
    at (p, k, q, r). -/
theorem sum_axis1_of4 {n0 n1 n2 n3 : ℕ} (x : FVec Ideal ⟨4, ![n0, n1, n2, n3]⟩ φ) (acc : BitVec φ.bits)
    (h : (⟨4, ![n0, n1, n2, n3]⟩ : Shape).Reduces [1] ⟨3, ![n0, n2, n3]⟩) (hφ : FKind.Formats φ)
    (hacc : acc = FKind.add.neutral φ hφ) (p : Fin n0) (q : Fin n2) (r : Fin n3) :
    multiReduction .add [1] ⟨3, ![n0, n2, n3]⟩ x acc h hφ hacc (ix3 p q r) = ∑ k : Fin n1, x (ix4 p k q r) :=
  (Ideal.multiReduction_add_single x acc h hφ hacc (ix3 p q r)).trans
    (Finset.sum_congr rfl fun k _ => congrArg x (funext fun a => Fin.ext (by
      match a with
      | ⟨0, _⟩ => rfl
      | ⟨1, _⟩ => rfl
      | ⟨2, _⟩ => rfl
      | ⟨3, _⟩ => rfl)))

/-- The last axis of an [a, h, w] array summed: at (p, q) the sum over k of the entry at (p, q, k). -/
theorem sum_axis2_of3 {n0 n1 n2 : ℕ} (x : FVec Ideal ⟨3, ![n0, n1, n2]⟩ φ) (acc : BitVec φ.bits)
    (h : (⟨3, ![n0, n1, n2]⟩ : Shape).Reduces [2] ⟨2, ![n0, n1]⟩) (hφ : FKind.Formats φ)
    (hacc : acc = FKind.add.neutral φ hφ) (p : Fin n0) (q : Fin n1) :
    multiReduction .add [2] ⟨2, ![n0, n1]⟩ x acc h hφ hacc (ix2 p q) = ∑ k : Fin n2, x (ix3 p q k) :=
  (Ideal.multiReduction_add_single x acc h hφ hacc (ix2 p q)).trans
    (Finset.sum_congr rfl fun k _ => congrArg x (funext fun a => Fin.ext (by
      match a with
      | ⟨0, _⟩ => rfl
      | ⟨1, _⟩ => rfl
      | ⟨2, _⟩ => rfl)))

/-- The last axis of an [a, h] array summed: at p the sum over k of the entry at (p, k). -/
theorem sum_axis1_of2 {n0 n1 : ℕ} (x : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (p : Fin n0) :
    multiReduction .add [1] ⟨1, ![n0]⟩ x acc h hφ hacc (ix1 p) = ∑ k : Fin n1, x (ix2 p k) :=
  (Ideal.multiReduction_add_single x acc h hφ hacc (ix1 p)).trans
    (Finset.sum_congr rfl fun k _ => congrArg x (funext fun a => Fin.ext (by
      match a with
      | ⟨0, _⟩ => rfl
      | ⟨1, _⟩ => rfl)))

/-- The leading axis of an [a, b] array summed: at q the sum over k of the entry at (k, q). -/
theorem sum_axis0_of2 {n0 n1 : ℕ} (x : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ x acc h hφ hacc (ix1 q) = ∑ k : Fin n0, x (ix2 k q) :=
  (Ideal.multiReduction_add_single x acc h hφ hacc (ix1 q)).trans
    (Finset.sum_congr rfl fun k _ => congrArg x (funext fun a => Fin.ext (by
      match a with
      | ⟨0, _⟩ => rfl
      | ⟨1, _⟩ => rfl)))

/-! ## Casts that insert or remove an axis of extent one -/

variable {α : Type}

/-- An [a, 1, b, c] array cast to [a, b, c] reads, at (p, q, r), the operand at (p, 0, q, r). -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h _ _ (by
    rw [Shape.rowMajor_val_four, Shape.rowMajor_val_three]
    show ((p.val * 1 + 0) * b + q.val) * c + r.val = (p.val * b + q.val) * c + r.val
    rw [Nat.mul_one, Nat.add_zero])

/-- An [a] array cast to the column [a, 1] reads, at (p, u), the operand at p, whatever the unit coordinate u. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.LibAxisSums

end
-- ==== Proof.TileStep.lean ====
/-
  One tile of the streamed softmax on the extended reals. From the tile's energies e(r), r < 512, the value
  block v(r,f) and the running triple (m, l, acc) it finds in the three output blocks, the body forms
      m′ = max(m, max_r e(r)),   a = exp(m − m′),   p(r) = exp(e(r) − m′),
      l′ = a·l + Σ_r p(r),       acc′(f) = a·acc(f) + Σ_r p(r)·v(r,f)
  and stores (m′, l′, acc′) back: the step `State.step` with the tile's maximum taken from −∞. At the first
  tile of a half it first stores (−∞, 0, 0) and reads those back, so it steps from `State.init`.
-/
import proofs.«168512_j14955076125142_2_alg».proof.Proof.Gen.KernelIdeal.Skeleton
import proofs.«168512_j14955076125142_2_alg».proof.Proof.Spec
import proofs.«168512_j14955076125142_2_alg».proof.Proof.LibMatmul2d
import proofs.«168512_j14955076125142_2_alg».proof.Proof.LibRowwise
import proofs.«168512_j14955076125142_2_alg».proof.Proof.LibMaxAxes
import proofs.«168512_j14955076125142_2_alg».proof.Proof.LibAxisSums
import Idealize.ShloMosaic.Lib.ValueIdx
import Idealize.ShloMosaic.Lib.ValueLayout
import Idealize.ShloMosaic.Lib.Pipeline.Value
import Idealize.ShloMosaic.PureOps.Ideal.Laws

noncomputable section

namespace Cert.TileValue

open Idealize.ShloMosaic Idealize.ShloMosaic.ValueIdx Cert.KernelIdeal Cert.KernelIdeal.Gen Cert.Attention
open scoped BigOperators

/-- The word 0xFF800000 is −∞. -/
theorem ofBits_neg_inf : Ideal.ofBits .f32 0xFF800000#32 = (⊥ : EReal) := by
  simp [Ideal.ofBits, Ideal.ieee]

/-- The zero word is 0. -/
theorem ofBits_zero' : Ideal.ofBits .f32 0x00000000#32 = (0 : EReal) := Ideal.ofBits_zero_f32

/-- The triple held in three blocks of shapes [1,1,1], [1,1,1] and [1,1,1024]. -/
def toState (o12 o13 : Vec Ideal S1x1x1 .f32) (o14 : Vec Ideal S1x1x1024 .f32) : State 1024 :=
  ⟨o12 (ix3 (0 : Fin 1) (0 : Fin 1) (0 : Fin 1)), o13 (ix3 (0 : Fin 1) (0 : Fin 1) (0 : Fin 1)),
   fun f => o14 (ix3 (0 : Fin 1) (0 : Fin 1) f)⟩

section
variable (v4 : Vec Ideal S512x1024 .f32) (v10 v12 : FVec Ideal S1x1024 .f32) (v29 : FVec Ideal S512x1024 .f32)
  (v31 : FVec Ideal S1024x1024 .bf16) (v32 v47 v49 : Vec Ideal S1024x1024 .bf16) (v65 : Vec Ideal S1x1x1 .f32)

/-- The tile's energies as a function of the row. -/
abbrev en : Fin 512 → EReal := fun r => k0_pay12 (F := Ideal) v4 v10 v12 v29 v31 v32 v47 v49 (ix2 r (0 : Fin 1))

/-- The new maximum: the old one against the tile's maximum taken from −∞. -/
theorem newMax_apply :
    k0_pay14 (F := Ideal) v4 v10 v12 v29 v31 v32 v47 v49 v65 (ix2 (0 : Fin 1) (0 : Fin 1))
      = max (v65 (ix3 (0 : Fin 1) (0 : Fin 1) (0 : Fin 1)))
          ((Finset.univ : Finset (Fin 512)).fold max (⊥ : EReal) (en v4 v10 v12 v29 v31 v32 v47 v49)) := by
  unfold k0_pay14 k0_pay13
  refine congrArg₂ max (shapeCast_1ab_ab_apply v65 _ 0 0) ?_
  refine (Cert.LibRowwise.shapeCast_a_a1_apply _ _ (0 : Fin 1) (0 : Fin 1)).trans ?_
  refine (Cert.LibMaxAxes.colMax_apply _ _ _ _ _ (0 : Fin 1)).trans ?_
  rw [ofBits_neg_inf]

/-- The rescale factor exp(m − m′). -/
theorem factor_apply :
    k0_pay15 (F := Ideal) v4 v10 v12 v29 v31 v32 v47 v49 v65 (ix2 (0 : Fin 1) (0 : Fin 1))
      = Ideal.exp (v65 (ix3 (0 : Fin 1) (0 : Fin 1) (0 : Fin 1))
          - k0_pay14 (F := Ideal) v4 v10 v12 v29 v31 v32 v47 v49 v65 (ix2 (0 : Fin 1) (0 : Fin 1))) := by
  unfold k0_pay15 k0_pay13
  exact congrArg (fun z => Ideal.exp (z - _)) (shapeCast_1ab_ab_apply v65 _ 0 0)

/-- The tile's weights p(r) = exp(e(r) − m′). -/
theorem weight_apply (r : Fin 512) :
    k0_pay16 (F := Ideal) v4 v10 v12 v29 v31 v32 v47 v49 v65 (ix2 r (0 : Fin 1))
      = Ideal.exp (en v4 v10 v12 v29 v31 v32 v47 v49 r
          - k0_pay14 (F := Ideal) v4 v10 v12 v29 v31 v32 v47 v49 v65 (ix2 (0 : Fin 1) (0 : Fin 1))) := by
  unfold k0_pay16
  exact congrArg (fun z => Ideal.exp (_ - z)) (broadcastTo_1b_ab_apply _ _ r (0 : Fin 1))

end

/-- The stored normaliser: a·l + Σ_r p(r). -/
theorem norm_apply (v71 : FVec Ideal S1x1 .f32) (v74 : FVec Ideal S512x1 .f32) (v77 : Vec Ideal S1x1x1 .f32) :
    k0_pay1 (F := Ideal) v71 v74 v77 (ix3 (0 : Fin 1) (0 : Fin 1) (0 : Fin 1))
      = v71 (ix2 (0 : Fin 1) (0 : Fin 1)) * v77 (ix3 (0 : Fin 1) (0 : Fin 1) (0 : Fin 1))
          + ∑ r : Fin 512, v74 (ix2 r (0 : Fin 1)) := by
  unfold k0_pay1
  refine (shapeCast_ab_1ab_apply _ _ (0 : Fin 1) (0 : Fin 1) (0 : Fin 1)).trans ?_
  refine congrArg₂ (· + ·) (congrArg₂ (· * ·) rfl (shapeCast_1ab_ab_apply v77 _ 0 0)) ?_
  refine (Cert.LibRowwise.shapeCast_a_a1_apply _ _ (0 : Fin 1) (0 : Fin 1)).trans ?_
  exact Cert.LibAxisSums.sum_axis0_of2 _ _ _ _ _ (0 : Fin 1)

/-- The stored accumulator: a·acc(f) + Σ_r p(r)·v(r,f), the sum being the contraction of the weights'
    column with the value block over the tile's rows. -/
theorem acc_apply (v6 : FVec Ideal S512x1024 .bf16) (v71 : FVec Ideal S1x1 .f32) (v74 : FVec Ideal S512x1 .f32)
    (v86 : Vec Ideal S1x1x1024 .f32) (f : Fin 1024) :
    k0_pay2 (F := Ideal) v6 v71 v74 v86 (ix3 (0 : Fin 1) (0 : Fin 1) f)
      = v71 (ix2 (0 : Fin 1) (0 : Fin 1)) * v86 (ix3 (0 : Fin 1) (0 : Fin 1) f)
          + ∑ r : Fin 512, v74 (ix2 r (0 : Fin 1)) * v6 (ix2 r f) := by
  unfold k0_pay2
  refine (shapeCast_ab_1ab_apply _ _ (0 : Fin 1) (0 : Fin 1) f).trans ?_
  refine congrArg₂ (· + ·) (congrArg₂ (· * ·) ?_ (shapeCast_1ab_ab_apply v86 _ 0 f)) ?_
  · exact Cert.LibRowwise.broadcastTo_a1_ab_apply v71 _ (0 : Fin 1) f
  · exact Cert.LibMatmul2d.matmul_transposedLhs_apply (K := 512) (M := 1) (N := 1024) _ _ (0 : Fin 1) f

/-- The stored maximum is the new maximum. -/
theorem max_store_apply (v69 : FVec Ideal S1x1 .f32) :
    k0_pay3 (F := Ideal) v69 (ix3 (0 : Fin 1) (0 : Fin 1) (0 : Fin 1)) = v69 (ix2 (0 : Fin 1) (0 : Fin 1)) := by
  unfold k0_pay3
  exact shapeCast_ab_1ab_apply _ _ (0 : Fin 1) (0 : Fin 1) (0 : Fin 1)

/-- What the first tile of a half stores before anything else: (−∞, 0, 0), the empty state. -/
theorem init_state : toState (k0_pay4 (F := Ideal)) (k0_pay5 (F := Ideal)) (k0_pay6 (F := Ideal)) = State.init := by
  unfold toState State.init k0_pay4 k0_pay5 k0_pay6
  refine congr (congr (congrArg State.mk ?_) ?_) (funext fun f => ?_)
  · exact (shapeCast_ab_1ab_apply _ _ (0 : Fin 1) (0 : Fin 1) (0 : Fin 1)).trans ofBits_neg_inf
  · exact (shapeCast_ab_1ab_apply _ _ (0 : Fin 1) (0 : Fin 1) (0 : Fin 1)).trans ofBits_zero'
  · exact (shapeCast_ab_1ab_apply _ _ (0 : Fin 1) (0 : Fin 1) f).trans ofBits_zero'

/-- THE TILE STEP. The three blocks the body stores, from the blocks it found, are one step of the streamed
    softmax over the tile's energies and value block. -/
theorem tile_step (v4 : Vec Ideal S512x1024 .f32) (v10 v12 : FVec Ideal S1x1024 .f32) (v29 : FVec Ideal S512x1024 .f32)
    (v31 : FVec Ideal S1024x1024 .bf16) (v32 v47 v49 : Vec Ideal S1024x1024 .bf16) (x2 : Vec Ideal S512x1024 .f32)
    (o12 o13 : Vec Ideal S1x1x1 .f32) (o14 : Vec Ideal S1x1x1024 .f32) :
    toState (k0_pay3 (k0_pay14 (F := Ideal) v4 v10 v12 v29 v31 v32 v47 v49 o12))
        (k0_pay1 (k0_pay15 (F := Ideal) v4 v10 v12 v29 v31 v32 v47 v49 o12) (k0_pay16 (F := Ideal) v4 v10 v12 v29 v31 v32 v47 v49 o12) o13)
        (k0_pay2 (k0_pay7 (F := Ideal) x2) (k0_pay15 (F := Ideal) v4 v10 v12 v29 v31 v32 v47 v49 o12)
          (k0_pay16 (F := Ideal) v4 v10 v12 v29 v31 v32 v47 v49 o12) o14)
      = (toState o12 o13 o14).step ((Finset.univ : Finset (Fin 512)).fold max (⊥ : EReal) (en v4 v10 v12 v29 v31 v32 v47 v49))
          (en v4 v10 v12 v29 v31 v32 v47 v49) (fun r f => x2 (ix2 r f)) := by
  have hm := newMax_apply v4 v10 v12 v29 v31 v32 v47 v49 o12
  unfold State.step toState
  refine congr (congr (congrArg State.mk ?_) ?_) (funext fun f => ?_)
  · exact (max_store_apply _).trans hm
  · refine (norm_apply _ _ _).trans ?_
    rw [factor_apply, hm]
    refine congrArg₂ (· + ·) rfl (Finset.sum_congr rfl fun r _ => ?_)
    rw [weight_apply, hm]
  · refine (acc_apply _ _ _ _ f).trans ?_
    rw [factor_apply, hm]
    refine congrArg₂ (· + ·) rfl (Finset.sum_congr rfl fun r _ => ?_)
    rw [weight_apply, hm]
    rfl

end Cert.TileValue

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.HalfSums.lean ====
/-
  Bookkeeping for sums accumulated tile by tile. The 65536 rows are cut into 128 tiles of 512 consecutive
  rows, and the tiles into 2 halves of 64 consecutive tiles. A running sum that restarts at the first tile of
  each half ends the half at the sum of that half's 64 tile sums; the two halves' sums together are the sum
  over all rows.
-/
import proofs.«168512_j14955076125142_2_alg».proof.Proof.LibBlockSum
import Mathlib.Algebra.BigOperators.Intervals
import Mathlib.Data.Real.Basic

noncomputable section

namespace Cert.Attention

open scoped BigOperators

/-- The running sum of T over the tiles, restarted at every tile whose number is a multiple of 64. -/
def runSum (T : ℕ → ℝ) : ℕ → ℝ
  | 0 => T 0
  | n + 1 => if (n + 1) % 64 = 0 then T (n + 1) else runSum T n + T (n + 1)

theorem runSum_zero (T : ℕ → ℝ) : runSum T 0 = T 0 := rfl

theorem runSum_restart (T : ℕ → ℝ) (n : ℕ) (h : n % 64 = 0) : runSum T n = T n := by
  cases n with
  | zero => rfl
  | succ n => rw [runSum, if_pos h]

theorem runSum_succ (T : ℕ → ℝ) (n : ℕ) (h : ¬n % 64 = 0) : runSum T n = runSum T (n - 1) + T n := by
  cases n with
  | zero => exact absurd (Nat.zero_mod 64) h
  | succ n => rw [runSum, if_neg h, Nat.add_sub_cancel]

/-- Inside half p the running sum at its tile number j (j < 64) is the sum of the half's tile sums up to
    and including tile j: it restarts at j = 0 and adds one tile sum at every later tile. -/
theorem runSum_prefix (T : ℕ → ℝ) (p : ℕ) :
    ∀ j, j < 64 → runSum T (64 * p + j) = ∑ i ∈ Finset.range (j + 1), T (64 * p + i) := by
  intro j
  induction j with
  | zero =>
    intro _
    rw [Nat.add_zero, runSum_restart T _ (Nat.mul_mod_right 64 p), Finset.sum_range_one, Nat.add_zero]
  | succ j ih =>
    intro hj
    have hne : ¬(64 * p + (j + 1)) % 64 = 0 := by omega
    rw [runSum_succ T _ hne, show 64 * p + (j + 1) - 1 = 64 * p + j by omega, ih (by omega)]
    exact (Finset.sum_range_succ (fun i => T (64 * p + i)) (j + 1)).symm

/-- At the last tile of half p the running sum is the sum of that half's 64 tile sums. -/
theorem runSum_last (T : ℕ → ℝ) (p : ℕ) : runSum T (64 * p + 63) = ∑ j ∈ Finset.range 64, T (64 * p + j) := by
  exact runSum_prefix T p 63 (by norm_num)

/-- A sum over the indices below a does not change when a is written differently. -/
theorem sum_fin_cast {a b : ℕ} (h : a = b) (g : ℕ → ℝ) : ∑ k : Fin a, g k.val = ∑ k : Fin b, g k.val := by
  subst h; rfl

/-- The two halves' tile sums, each tile sum a sum over the tile's 512 rows, are the sum over all rows. -/
theorem sum_halves_tiles_rows (g : ℕ → ℝ) :
    (∑ p : Fin 2, ∑ j ∈ Finset.range 64, ∑ r : Fin 512, g (512 * (64 * p.val + j) + r.val))
      = ∑ n : Fin 65536, g n.val := by
  -- the 128 tile sums, each over its 512 rows, add up to the sum over all 128·512 rows
  have hf : ∀ s : Fin 128, (fun t => ∑ r : Fin 512, g (512 * t + r.val)) s.val
      = ∑ r : Fin 512, (fun k : Fin (128 * 512) => g k.val) (LibBlockSum.blockIdx s r) := by
    intro s
    refine Finset.sum_congr rfl fun r _ => ?_
    show g (512 * s.val + r.val) = g (LibBlockSum.blockIdx s r).val
    rw [LibBlockSum.blockIdx_val, Nat.add_comm]
  have hblocks : (∑ t ∈ Finset.range 128, ∑ r : Fin 512, g (512 * t + r.val)) = ∑ k : Fin (128 * 512), g k.val :=
    LibBlockSum.sum_range_blocks 128 512 (fun k => g k.val) (fun t => ∑ r : Fin 512, g (512 * t + r.val)) hf
  -- tiles 0..127 are tiles 0..63 followed by tiles 64+0..64+63
  have hsplit : (∑ t ∈ Finset.range 128, ∑ r : Fin 512, g (512 * t + r.val))
      = (∑ t ∈ Finset.range 64, ∑ r : Fin 512, g (512 * t + r.val))
        + ∑ t ∈ Finset.range 64, ∑ r : Fin 512, g (512 * (64 + t) + r.val) :=
    Finset.sum_range_add (fun t => ∑ r : Fin 512, g (512 * t + r.val)) 64 64
  rw [Fin.sum_univ_two]
  simp only [Fin.val_zero, Fin.val_one, Nat.mul_zero, Nat.zero_add, Nat.mul_one]
  rw [← sum_fin_cast (by norm_num : 128 * 512 = 65536) g, ← hblocks]
  exact hsplit.symm

end Cert.Attention

end
-- ==== Proof.KerInduction.lean ====
/-
  The streamed program, point by point. After grid point n the three output blocks hold a triple; at the
  first tile of a half it is the empty state stepped once, at a later tile the previous point's triple stepped
  once, the step being over the tile's energies and its block of `value`. For real inputs the tile's energies
  are the energies of rows 512·n … 512·n + 511 of the whole arrays (the three-pass layers collapse to the plain
  ones, and an energy depends on its own row of `key` and `query` only), so by induction on the point the
  triple always stands for the running sums of exp(e) and exp(e)·value over the rows streamed so far in the
  current half.
-/
import proofs.«168512_j14955076125142_2_alg».proof.Proof.KerPieces
import proofs.«168512_j14955076125142_2_alg».proof.Proof.KerBlocks
import proofs.«168512_j14955076125142_2_alg».proof.Proof.TileEnergy
import proofs.«168512_j14955076125142_2_alg».proof.Proof.TileStep
import proofs.«168512_j14955076125142_2_alg».proof.Proof.SoftmaxAlgebra
import proofs.«168512_j14955076125142_2_alg».proof.Proof.HalfSums

set_option maxRecDepth 16384

noncomputable section

namespace Cert.KerValue

open Idealize.ShloMosaic Idealize.ShloMosaic.TcCoe Idealize.SL.Sem Idealize.ShloMosaic.ValueIdx
open Cert.KernelIdeal Cert.KernelIdeal.Gen Cert.Attention Cert.TileValue Cert.KerBlocks Cert.KerPieces
open scoped BigOperators

variable (m : (ℓ : Loc nD τ sig) → Buf (Elt Ideal) ℓ)

/-! ## The arguments by coordinates -/

def key (c : Dev nD) : Fin 65536 → Fin 1024 → EReal := fun n k => m ((c.tc : Thread nD τ).loc main_arg0) (ix2 n k)
def query (c : Dev nD) : Fin 65536 → Fin 1024 → EReal := fun n k => m ((c.tc : Thread nD τ).loc main_arg1) (ix2 n k)
def value (c : Dev nD) : Fin 65536 → Fin 1024 → EReal := fun n k => m ((c.tc : Thread nD τ).loc main_arg2) (ix2 n k)
def W0 (c : Dev nD) : Fin 1024 → Fin 1024 → EReal := fun g k => m ((c.tc : Thread nD τ).loc main_arg3) (ix2 g k)
def b0 (c : Dev nD) : Fin 1024 → EReal := fun g => m ((c.tc : Thread nD τ).loc main_arg4) (ix1 g)
def W1 (c : Dev nD) : Fin 1024 → Fin 1024 → EReal := fun g k => m ((c.tc : Thread nD τ).loc main_arg5) (ix2 g k)
def b1 (c : Dev nD) : Fin 1024 → EReal := fun g => m ((c.tc : Thread nD τ).loc main_arg6) (ix1 g)
def Wa (c : Dev nD) : Fin 1024 → Fin 1024 → EReal := fun g k => m ((c.tc : Thread nD τ).loc main_arg7) (ix2 g k)
def ba (c : Dev nD) : Fin 1024 → EReal := fun g => m ((c.tc : Thread nD τ).loc main_arg8) (ix1 g)

/-- Every entry of every argument is a real number. -/
structure RealInputs (c : Dev nD) : Prop where
  h0 : ∀ i, IsReal (m ((c.tc : Thread nD τ).loc main_arg0) i)
  h1 : ∀ i, IsReal (m ((c.tc : Thread nD τ).loc main_arg1) i)
  h2 : ∀ i, IsReal (m ((c.tc : Thread nD τ).loc main_arg2) i)
  h3 : ∀ i, IsReal (m ((c.tc : Thread nD τ).loc main_arg3) i)
  h4 : ∀ i, IsReal (m ((c.tc : Thread nD τ).loc main_arg4) i)
  h5 : ∀ i, IsReal (m ((c.tc : Thread nD τ).loc main_arg5) i)
  h6 : ∀ i, IsReal (m ((c.tc : Thread nD τ).loc main_arg6) i)
  h7 : ∀ i, IsReal (m ((c.tc : Thread nD τ).loc main_arg7) i)
  h8 : ∀ i, IsReal (m ((c.tc : Thread nD τ).loc main_arg8) i)

/-- The energy of row n, and its real part; the real part of `value`. -/
def E (c : Dev nD) (n : Fin 65536) : EReal :=
  energy (key m c) (query m c) (W0 m c) (W1 m c) (Wa m c) (b0 m c) (b1 m c) (ba m c) n
def eR (c : Dev nD) (n : Fin 65536) : ℝ := (E m c n).toReal
def vR (c : Dev nD) (n : Fin 65536) (f : Fin 1024) : ℝ := (value m c n f).toReal

/-- The same two, indexed by a natural number (0 beyond the last row). -/
def eN (c : Dev nD) (n : ℕ) : ℝ := if h : n < 65536 then eR m c ⟨n, h⟩ else 0
def vN (c : Dev nD) (n : ℕ) (f : Fin 1024) : ℝ := if h : n < 65536 then vR m c ⟨n, h⟩ f else 0

theorem eN_row (c : Dev nD) (t : Fin cfg0.N) (r : Fin 512) : eN m c (512 * t.val + r.val) = eR m c (rowOf t r) := by
  unfold eN; rw [dif_pos (show 512 * t.val + r.val < 65536 from (rowOf t r).isLt)]; rfl
theorem vN_row (c : Dev nD) (t : Fin cfg0.N) (r : Fin 512) (f : Fin 1024) :
    vN m c (512 * t.val + r.val) f = vR m c (rowOf t r) f := by
  unfold vN; rw [dif_pos (show 512 * t.val + r.val < 65536 from (rowOf t r).isLt)]; rfl

theorem E_real (c : Dev nD) (hr : RealInputs m c) (n : Fin 65536) : IsReal (E m c n) :=
  isReal_energy _ _ _ _ _ _ _ _ (fun n k => hr.h0 _) (fun n k => hr.h1 _) (fun g k => hr.h3 _) (fun g k => hr.h5 _)
    (fun g k => hr.h7 _) (fun g => hr.h4 _) (fun g => hr.h6 _) (fun g => hr.h8 _) n

theorem E_eq (c : Dev nD) (hr : RealInputs m c) (n : Fin 65536) : E m c n = ((eR m c n : ℝ) : EReal) :=
  ((E_real m c hr n).coe_toReal).symm
theorem value_eq (c : Dev nD) (hr : RealInputs m c) (n : Fin 65536) (f : Fin 1024) :
    value m c n f = ((vR m c n f : ℝ) : EReal) := ((hr.h2 _).coe_toReal).symm

/-- An energy formed in three passes depends on its own row of `key` and `query` only. -/
theorem energy3_row {N N' K : ℕ} (ky qy : Fin N → Fin K → EReal) (ky' qy' : Fin N' → Fin K → EReal)
    (w0 w1 wa : Fin K → Fin K → EReal) (c0 c1 ca : Fin K → EReal) (n : Fin N) (n' : Fin N')
    (hk : ∀ k, ky n k = ky' n' k) (hq : ∀ k, qy n k = qy' n' k) :
    energy3 ky qy w0 w1 wa c0 c1 ca n = energy3 ky' qy' w0 w1 wa c0 c1 ca n' := by
  unfold energy3 affine3
  simp only [hk, hq]

/-! ## One tile -/

/-- The tile's energies at point t, as the body forms them from the blocks. -/
def enAt (c : Dev nD) (t : Fin cfg0.N) : Fin 512 → EReal :=
  en (iblk m c 1 t) (k0_pay8 (iblk m c 8 t)) (k0_pay9 (iblk m c 11 t)) (k0_pay10 (iblk m c 0 t) (iblk m c 5 t) (iblk m c 3 t) (iblk m c 4 t)) (k0_pay11 (iblk m c 6 t)) (iblk m c 7 t) (iblk m c 9 t) (iblk m c 10 t)

/-- They are the energies of the rows the tile streams. -/
theorem enAt_eq (c : Dev nD) (hr : RealInputs m c) (t : Fin cfg0.N) (r : Fin 512) :
    enAt m c t r = ((eR m c (rowOf t r) : ℝ) : EReal) := by
  unfold enAt en
  rw [tile_energy (iblk m c 0 t) (iblk m c 1 t) (iblk m c 3 t) (iblk m c 4 t) (iblk m c 5 t) (iblk m c 6 t) (iblk m c 7 t) (iblk m c 8 t) (iblk m c 9 t) (iblk m c 10 t) (iblk m c 11 t)
    (fun k f => lo_block_4 m c t k f _ _ rfl rfl) (fun k f => lo_block_7 m c t k f _ _ rfl rfl)
    (fun k f => lo_block_10 m c t k f _ _ rfl rfl) r]
  have hW0 : (fun (g : Fin 1024) (k : Fin 1024) => ((iblk m c 3 t) : Vec Ideal S1024x1024 .bf16) (ix2 k g)) = W0 m c :=
    funext fun g => funext fun k => hi_block_3 m c t k g
  have hW1 : (fun (g : Fin 1024) (k : Fin 1024) => ((iblk m c 6 t) : Vec Ideal S1024x1024 .bf16) (ix2 k g)) = W1 m c :=
    funext fun g => funext fun k => hi_block_6 m c t k g
  have hWa : (fun (g : Fin 1024) (k : Fin 1024) => ((iblk m c 9 t) : Vec Ideal S1024x1024 .bf16) (ix2 k g)) = Wa m c :=
    funext fun g => funext fun k => hi_block_9 m c t k g
  have hb0 : (fun (g : Fin 1024) => ((iblk m c 5 t) : Vec Ideal S1x1024 .f32) (ix2 (0 : Fin 1) g)) = b0 m c :=
    funext fun g => bias_block_5 m c t g
  have hb1 : (fun (g : Fin 1024) => ((iblk m c 8 t) : Vec Ideal S1x1024 .f32) (ix2 (0 : Fin 1) g)) = b1 m c :=
    funext fun g => bias_block_8 m c t g
  have hba : (fun (g : Fin 1024) => ((iblk m c 11 t) : Vec Ideal S1x1024 .f32) (ix2 (0 : Fin 1) g)) = ba m c :=
    funext fun g => bias_block_11 m c t g
  rw [hW0, hW1, hWa, hb0, hb1, hba]
  rw [energy3_row _ _ (key m c) (query m c) _ _ _ _ _ _ r (rowOf t r)
    (fun k => key_block m c t r k) (fun k => query_block m c t r k)]
  exact (energy3_eq_energy (key m c) (query m c) (W0 m c) (W1 m c) (Wa m c) (b0 m c) (b1 m c) (ba m c)
    (fun n k => hr.h0 _) (fun n k => hr.h1 _) (fun g k => hr.h3 _) (fun g k => hr.h5 _) (fun g k => hr.h7 _)
    (fun g => hr.h4 _) (fun g => hr.h6 _) (fun g => hr.h8 _) (rowOf t r)).trans (E_eq m c hr (rowOf t r))

/-- The tile's block of `value`. -/
theorem valueAt_eq (c : Dev nD) (hr : RealInputs m c) (t : Fin cfg0.N) :
    (fun (r : Fin 512) (f : Fin 1024) => ((iblk m c 2 t) : Vec Ideal S512x1024 .f32) (ix2 r f))
      = fun r f => ((vR m c (rowOf t r) f : ℝ) : EReal) :=
  funext fun r => funext fun f => (value_block m c t r f).trans (value_eq m c hr (rowOf t r) f)

/-! ## The triple after each point -/

/-- The triple the three output blocks hold after point n. -/
def stateAt (c : Dev nD) (n : ℕ) (h : n < cfg0.N) : State 1024 :=
  toState (outsAt0 m c n h).1 (outsAt0 m c n h).2.1 (outsAt0 m c n h).2.2

/-- At the first tile of a half: the empty state, stepped over the tile. -/
theorem stateAt_first (c : Dev nD) (t : Fin cfg0.N) (h0 : t.val % 64 = 0) :
    stateAt m c t.val t.isLt
      = (State.init (F := 1024)).step ((Finset.univ : Finset (Fin 512)).fold max (⊥ : EReal) (enAt m c t)) (enAt m c t)
          (fun r f => ((iblk m c 2 t) : Vec Ideal S512x1024 .f32) (ix2 r f)) := by
  unfold stateAt
  rw [outsAt0_A m c t h0]
  dsimp only
  rw [out_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    out_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t),
    out_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)]
  refine (tile_step (iblk m c 1 t) (k0_pay8 (iblk m c 8 t)) (k0_pay9 (iblk m c 11 t)) (k0_pay10 (iblk m c 0 t) (iblk m c 5 t) (iblk m c 3 t) (iblk m c 4 t)) (k0_pay11 (iblk m c 6 t)) (iblk m c 7 t) (iblk m c 9 t) (iblk m c 10 t) (iblk m c 2 t) (k0_pay4 (F := Ideal)) (k0_pay5 (F := Ideal)) (k0_pay6 (F := Ideal))).trans ?_
  rw [init_state]
  rfl

/-- At a later tile: the previous point's triple, stepped over the tile. -/
theorem stateAt_next (c : Dev nD) (t : Fin cfg0.N) (h0 : ¬t.val % 64 = 0) :
    stateAt m c t.val t.isLt
      = (stateAt m c (t.val - 1) (Nat.lt_of_le_of_lt (Nat.sub_le _ _) t.isLt)).step
          ((Finset.univ : Finset (Fin 512)).fold max (⊥ : EReal) (enAt m c t)) (enAt m c t)
          (fun r f => ((iblk m c 2 t) : Vec Ideal S512x1024 .f32) (ix2 r f)) := by
  unfold stateAt
  rw [outsAt0_B m c t h0]
  dsimp only
  rw [out_B_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _,
    out_B_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _,
    out_B_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _]
  exact tile_step (iblk m c 1 t) (k0_pay8 (iblk m c 8 t)) (k0_pay9 (iblk m c 11 t)) (k0_pay10 (iblk m c 0 t) (iblk m c 5 t) (iblk m c 3 t) (iblk m c 4 t)) (k0_pay11 (iblk m c 6 t)) (iblk m c 7 t) (iblk m c 9 t) (iblk m c 10 t) (iblk m c 2 t) _ _ _

/-- The tile sums of exp(e) and of exp(e)·value(·, f) over the rows of tile j. -/
def Tl (c : Dev nD) (j : ℕ) : ℝ := ∑ r : Fin 512, Real.exp (eN m c (512 * j + r.val))
def Ta (c : Dev nD) (f : Fin 1024) (j : ℕ) : ℝ := ∑ r : Fin 512, Real.exp (eN m c (512 * j + r.val)) * vN m c (512 * j + r.val) f

/-- The tile sums, through the tile's own rows. -/
theorem Tl_eq (c : Dev nD) (t : Fin cfg0.N) : Tl m c t.val = ∑ r : Fin 512, Real.exp (eR m c (rowOf t r)) := by
  unfold Tl; simp only [eN_row]
theorem Ta_eq (c : Dev nD) (f : Fin 1024) (t : Fin cfg0.N) :
    Ta m c f t.val = ∑ r : Fin 512, Real.exp (eR m c (rowOf t r)) * vR m c (rowOf t r) f := by
  unfold Ta; simp only [eN_row, vN_row]

/-- The first tile of a half leaves the triple standing for that tile's own sums. -/
theorem holds_first (c : Dev nD) (hr : RealInputs m c) (t : Fin cfg0.N) (h0 : t.val % 64 = 0) :
    (stateAt m c t.val t.isLt).Holds (Tl m c t.val) (fun f => Ta m c f t.val) := by
  rw [stateAt_first m c t h0, valueAt_eq m c hr t]
  have he : enAt m c t = fun r => ((eR m c (rowOf t r) : ℝ) : EReal) := funext (enAt_eq m c hr t)
  rw [he]
  obtain ⟨mt, hmt⟩ := isReal_fold_max (by decide : 0 < 512) (fun r : Fin 512 => ((eR m c (rowOf t r) : ℝ) : EReal))
    (fun r => isReal_coe _)
  rw [hmt]
  simp only [Tl_eq, Ta_eq]
  exact holds_step_init mt (fun r => eR m c (rowOf t r)) (fun r f => vR m c (rowOf t r) f)

/-- A later tile adds its own sums to what the previous point's triple stood for. -/
theorem holds_next (c : Dev nD) (hr : RealInputs m c) (t : Fin cfg0.N) (h0 : ¬t.val % 64 = 0) (L : ℝ) (A : Fin 1024 → ℝ)
    (ih : (stateAt m c (t.val - 1) (Nat.lt_of_le_of_lt (Nat.sub_le _ _) t.isLt)).Holds L A) :
    (stateAt m c t.val t.isLt).Holds (L + Tl m c t.val) (fun f => A f + Ta m c f t.val) := by
  rw [stateAt_next m c t h0, valueAt_eq m c hr t]
  have he : enAt m c t = fun r => ((eR m c (rowOf t r) : ℝ) : EReal) := funext (enAt_eq m c hr t)
  rw [he]
  obtain ⟨mt, hmt⟩ := isReal_fold_max (by decide : 0 < 512) (fun r : Fin 512 => ((eR m c (rowOf t r) : ℝ) : EReal))
    (fun r => isReal_coe _)
  rw [hmt]
  simp only [Tl_eq, Ta_eq]
  exact holds_step _ L A ih mt (fun r => eR m c (rowOf t r)) (fun r f => vR m c (rowOf t r) f)

/-- THE INVARIANT: after every point the triple stands for the running sums over the current half. -/
theorem holds_at (c : Dev nD) (hr : RealInputs m c) : ∀ (n : ℕ) (h : n < cfg0.N),
    (stateAt m c n h).Holds (runSum (Tl m c) n) (fun f => runSum (Ta m c f) n) := by
  intro n
  induction n with
  | zero =>
    intro h
    exact holds_first m c hr ⟨0, h⟩ rfl
  | succ n ih =>
    intro h
    by_cases h0 : (n + 1) % 64 = 0
    · simp only [runSum_restart _ _ h0]
      exact holds_first m c hr ⟨n + 1, h⟩ h0
    · simp only [runSum_succ _ _ h0]
      exact holds_next m c hr ⟨n + 1, h⟩ h0 _ _ (ih (Nat.lt_of_succ_lt h))

/-- At the last tile of half p the triple stands for the half's sums: 64 tile sums. -/
theorem holds_last (c : Dev nD) (hr : RealInputs m c) (p : ℕ) (h : 64 * p + 63 < cfg0.N) :
    (stateAt m c (64 * p + 63) h).Holds (∑ j ∈ Finset.range 64, Tl m c (64 * p + j))
      (fun f => ∑ j ∈ Finset.range 64, Ta m c f (64 * p + j)) := by
  have := holds_at m c hr (64 * p + 63) h
  simp only [runSum_last] at this
  exact this

end Cert.KerValue

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.KerTailLayout.lean ====
/-
  Layout and reduction facts for the lines that merge the two halves: a cast that drops unit axes read at an
  index, a per-half factor repeated along the features, and the host's maximum and sums over the axis of the
  halves, each as a fold or a finite sum over that axis's coordinates.
-/
import proofs.«168512_j14955076125142_2_alg».proof.Proof.LibColumns
import proofs.«168512_j14955076125142_2_alg».proof.Proof.LibMaxAxes
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KerTailLayout

open Idealize.ShloMosaic Idealize.ShloMosaic.ValueIdx
open scoped BigOperators

variable {α : Type}

/-! ## Casts that drop unit axes -/

/-- An [a, 1, 1] array cast to [a] reads, at p, the operand at (p, 0, 0). -/
theorem shapeCast_a11_a_apply {a : ℕ} (x : (⟨3, ![a, 1, 1]⟩ : Shape).Idx → α)
    (h : (⟨3, ![a, 1, 1]⟩ : Shape).ShapeCasts ⟨1, ![a]⟩) (p : Fin a) :
    shapeCast ⟨1, ![a]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- An [a, 1, b] array cast to [a, b] reads, at (p, f), the operand at (p, 0, f). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (f : Fin b) :
    shapeCast ⟨2, ![a, b]⟩ x h (ix2 p f) = x (ix3 p (0 : Fin 1) f) :=
  shapeCast_apply x h _ _ (by
    rw [Shape.rowMajor_val_three, Shape.rowMajor_val_two]
    show (p.val * 1 + 0) * b + f.val = p.val * b + f.val
    rw [Nat.mul_one, Nat.add_zero])

/-! ## A per-row factor repeated along the row -/

/-- A one-column matrix [a, 1] repeated along b columns by a broadcast (dims = [0, 1]) reads, at (p, f), the column at p. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (f : Fin b) : broadcastInDim ⟨2, ![a, b]⟩ ![0, 1] h x (ix2 p f) = x (ix2 p (0 : Fin 1)) := by
  refine broadcastInDim_apply _ h x (ix2 p f) (ix2 p (0 : Fin 1)) fun ax => ?_
  match ax with
  | ⟨0, _⟩ =>
    show p.val = if a = 1 then 0 else p.val
    split
    · have := p.isLt; omega
    · rfl
  | ⟨1, _⟩ => exact (if_pos rfl).symm

/-- A per-row quantity x : [a] made a column and repeated along the row, both by broadcasts: x p everywhere in row p. -/
theorem perRowHost_apply {a b : ℕ} (x : (⟨1, ![a]⟩ : Shape).Idx → α)
    (h₁ : (⟨1, ![a]⟩ : Shape).BroadcastsInDim ⟨2, ![a, 1]⟩ (![0] : Fin 1 → Fin (⟨2, ![a, 1]⟩ : Shape).rank))
    (h₂ : (⟨2, ![a, 1]⟩ : Shape).BroadcastsInDim ⟨2, ![a, b]⟩ (![0, 1] : Fin 2 → Fin (⟨2, ![a, b]⟩ : Shape).rank))
    (p : Fin a) (f : Fin b) :
    broadcastInDim ⟨2, ![a, b]⟩ ![0, 1] h₂ (broadcastInDim ⟨2, ![a, 1]⟩ ![0] h₁ x) (ix2 p f) = x (ix1 p) :=
  (broadcastInDim_a1_ab_apply _ h₂ p f).trans (Cert.LibColumns.broadcastInDim_a_a1_apply x h₁ p 0)

/-! ## Reductions of a vector to a scalar

A reduction of a vector over its one axis leaves a scalar: every index of the vector drops to the scalar's one
index, so the reduction runs over all the entries. -/

/-- A vector's indices correspond one to one to its coordinates. -/
def idx1Equiv (n : ℕ) : Fin n ≃ (⟨1, ![n]⟩ : Shape).Idx where
  toFun := ix1
  invFun j := j 0
  left_inv _ := rfl
  right_inv j := (eq_ix1 j).symm

/-- The host's maximum of a vector: the fold of max over its entries, from the initial value. -/
theorem hostVecMax_apply {φ : FTy} {a : ℕ} {u : Shape} (x : FVec Ideal ⟨1, ![a]⟩ φ) (init : u.Idx → Ideal φ)
    (h' : (⟨1, ![a]⟩ : Shape).ReducesTo [0] ⟨0, ![]⟩) (hu : 0 < u.numel) (j : (⟨0, ![]⟩ : Shape).Idx) :
    Host.reduce (FloatOps.maximumf (F := Ideal) (φ := φ)) x init h' hu j
      = (Finset.univ : Finset (Fin a)).fold max (init (Shape.Idx.first hu)) (fun k => x (ix1 k)) := by
  rw [Host.reduce_eq_fold, Finset.filter_true_of_mem (fun i _ => funext fun b => b.elim0),
    ← Finset.map_univ_equiv (idx1Equiv a), Finset.fold_map]
  rfl

/-- The host's sum of a vector: the initial value plus the sum of its entries. -/
theorem hostVecSum_apply {φ : FTy} {a : ℕ} {u : Shape} (x : FVec Ideal ⟨1, ![a]⟩ φ) (init : u.Idx → Ideal φ)
    (h' : (⟨1, ![a]⟩ : Shape).ReducesTo [0] ⟨0, ![]⟩) (hu : 0 < u.numel) (j : (⟨0, ![]⟩ : Shape).Idx) :
    Host.reduceAdd x init h' hu j = init (Shape.Idx.first hu) + ∑ k : Fin a, x (ix1 k) := by
  refine (hostReduceAdd_apply x init h' hu j).trans ?_
  unfold Ideal.hostReduceAdd
  rw [Finset.filter_true_of_mem (fun i _ => funext fun b => b.elim0)]
  exact congrArg (init (Shape.Idx.first hu) + ·) ((idx1Equiv a).sum_comp x).symm

/-- The host's sum of a matrix over its first axis, at column f: the initial value plus the sum of the column's entries. -/
theorem hostColSum_apply {φ : FTy} {a b : ℕ} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (f : Fin b) :
    Host.reduceAdd x init h' hu (ix1 f) = init (Shape.Idx.first hu) + ∑ k : Fin a, x (ix2 k f) :=
  (hostReduceAdd_apply x init h' hu (ix1 f)).trans
    ((Ideal.hostReduceAdd_single h' h x _ (ix1 f)).trans
      (congrArg (init (Shape.Idx.first hu) + ·)
        (Finset.sum_congr rfl fun k _ => congrArg x (Cert.LibMaxAxes.lift_firstAxis h f k))))

end Cert.KerTailLayout

end
-- ==== Proof.KerTailMerge.lean ====
/-
  The lines after the region, read at a feature. From the three output arrays — per half p a running maximum
  m_p, a normaliser l_p and an accumulator acc_p(f) — they form the common maximum M = max_p m_p taken from −∞,
  the factors exp(m_p − M), the sums Σ_p exp(m_p − M)·l_p and Σ_p exp(m_p − M)·acc_p(f), and the quotient of
  the second by the first, laid out as one row: the merge of the two halves' triples against M.
-/
import proofs.«168512_j14955076125142_2_alg».proof.Proof.Gen.KernelIdeal.Launch
import proofs.«168512_j14955076125142_2_alg».proof.Proof.Spec
import proofs.«168512_j14955076125142_2_alg».proof.Proof.KerTailLayout
import Idealize.ShloMosaic.Lib.StableHlo.Run

noncomputable section

namespace Cert.KerTailMerge

open Idealize.ShloMosaic Idealize.ShloMosaic.TcCoe Idealize.SL.Sem Idealize.ShloMosaic.ValueIdx
open Cert.KernelIdeal Cert.KernelIdeal.Gen Cert.Attention Cert.KerTailLayout
open scoped BigOperators

/-- The word 0xFF800000 is −∞. -/
theorem ofBits_neg_inf : Ideal.ofBits .f32 0xFF800000#32 = (⊥ : EReal) := by
  simp [Ideal.ofBits, Ideal.ieee]

variable (a12 a13 : FVec Ideal S2x1x1 .f32) (a14 : FVec Ideal S2x1x1024 .f32)

/-- A [2,1,1] array as a vector over the halves. -/
def vec (a : FVec Ideal S2x1x1 .f32) : FVec Ideal S2 .f32 := shapeCast S2 a shapeCasts_S2x1x1_S2

theorem vec_apply (a : FVec Ideal S2x1x1 .f32) (p : Fin 2) : vec a (ix1 p) = a (ix3 p (0 : Fin 1) (0 : Fin 1)) :=
  shapeCast_a11_a_apply a _ p

/-- The common maximum: the halves' maxima folded from −∞. -/
def gmax : FVec Ideal S_ .f32 :=
  Host.reduce FloatOps.maximumf (vec a12) (constant S_ .f32 0xFF800000#32) reducesTo_S2_S_d0 h_S_

/-- The common maximum as a number. -/
abbrev M : EReal := (Finset.univ : Finset (Fin 2)).fold max (⊥ : EReal) (fun p => a12 (ix3 p (0 : Fin 1) (0 : Fin 1)))

theorem gmax_apply (j : S_.Idx) : gmax a12 j = M a12 := by
  unfold gmax
  refine (hostVecMax_apply (vec a12) _ reducesTo_S2_S_d0 h_S_ j).trans ?_
  rw [constant_apply, ofBits_neg_inf]
  exact congrArg (fun g => (Finset.univ : Finset (Fin 2)).fold max (⊥ : EReal) g) (funext fun p => vec_apply a12 p)

/-- The per-half factors exp(m_p − M). -/
def scale : FVec Ideal S2 .f32 := Host.exp (subf (vec a12) (broadcastInDim S2 ![] bcast_S_S2 (gmax a12)))

theorem scale_apply (p : Fin 2) : scale a12 (ix1 p) = Ideal.exp (a12 (ix3 p (0 : Fin 1) (0 : Fin 1)) - M a12) := by
  show Ideal.exp (vec a12 (ix1 p) - broadcastInDim S2 ![] bcast_S_S2 (gmax a12) (ix1 p)) = _
  rw [vec_apply, broadcastInDim_scalar_apply, gmax_apply]

/-- The merged normaliser Σ_p exp(m_p − M)·l_p. -/
def lsum : FVec Ideal S_ .f32 :=
  Host.reduceAdd (mulf (scale a12) (vec a13)) (constant S_ .f32 0x00000000#32) reducesTo_S2_S_d0 h_S_

theorem lsum_apply (j : S_.Idx) :
    lsum a12 a13 j = ∑ p : Fin 2, Ideal.exp (a12 (ix3 p (0 : Fin 1) (0 : Fin 1)) - M a12) * a13 (ix3 p (0 : Fin 1) (0 : Fin 1)) := by
  unfold lsum
  refine (hostVecSum_apply _ _ reducesTo_S2_S_d0 h_S_ j).trans ?_
  rw [constant_apply, Ideal.ofBits_zero_f32, zero_add]
  refine Finset.sum_congr rfl fun p _ => ?_
  rw [mulf_apply, scale_apply, vec_apply]

/-- The merged accumulator Σ_p exp(m_p − M)·acc_p(f). -/
def asum : FVec Ideal S1024 .f32 :=
  Host.reduceAdd
    (mulf (broadcastInDim S2x1024 ![0, 1] bcast_S2x1_S2x1024_0_1 (broadcastInDim S2x1 ![0] bcast_S2_S2x1_0 (scale a12)))
      (shapeCast S2x1024 a14 shapeCasts_S2x1x1024_S2x1024))
    (constant S_ .f32 0x00000000#32) reducesTo_S2x1024_S1024_d0 h_S_

theorem asum_apply (f : Fin 1024) :
    asum a12 a14 (ix1 f) = ∑ p : Fin 2, Ideal.exp (a12 (ix3 p (0 : Fin 1) (0 : Fin 1)) - M a12) * a14 (ix3 p (0 : Fin 1) f) := by
  unfold asum
  refine (hostColSum_apply _ _ reducesTo_S2x1024_S1024_d0 (by decide) h_S_ f).trans ?_
  rw [constant_apply, Ideal.ofBits_zero_f32, zero_add]
  refine Finset.sum_congr rfl fun p _ => ?_
  rw [mulf_apply, perRowHost_apply, scale_apply, shapeCast_a1b_ab_apply]

/-- The lines after the region as one function of the three output arrays. -/
def tail : FVec Ideal S1x1024 .f32 :=
  broadcastInDim S1x1024 ![1] bcast_S1024_S1x1024_1
    (Host.divf (asum a12 a14) (broadcastInDim S1024 ![] bcast_S_S1024 (lsum a12 a13)))

/-- The triple of half p read out of the three arrays. -/
abbrev triple (p : Fin 2) : State 1024 :=
  ⟨a12 (ix3 p (0 : Fin 1) (0 : Fin 1)), a13 (ix3 p (0 : Fin 1) (0 : Fin 1)), fun f => a14 (ix3 p (0 : Fin 1) f)⟩

/-- THE MERGE. At feature f the result row is the merge of the halves' triples against their common maximum. -/
theorem tail_apply (u : Fin 1) (f : Fin 1024) :
    tail a12 a13 a14 (ix2 u f) = merge (triple a12 a13 a14) (M a12) f := by
  unfold tail
  refine (Cert.LibColumns.broadcastInDim_b_1b_apply _ _ u f).trans ?_
  show Ideal.div (asum a12 a14 (ix1 f)) (broadcastInDim S1024 ![] bcast_S_S1024 (lsum a12 a13) (ix1 f)) = _
  rw [asum_apply, broadcastInDim_scalar_apply, lsum_apply]
  rfl

/-- The nineteen lines leave, in the result buffer, that function of the three output arrays' contents. -/
theorem after_tail (W : Valuation τ sig (Elt Ideal)) :
    StableHlo.after (hostOps1 (F := Ideal)) W (Proc.devRef .tc main_v34)
      = tail (W (Proc.devRef .tc main_v18_0)) (W (Proc.devRef .tc main_v18_1)) (W (Proc.devRef .tc main_v18_2)) := by
  after_results
  rfl

end Cert.KerTailMerge

end
-- ==== Proof.KerTail.lean ====
/-
  After the grid: each of the three output arrays has one block per half of the rows, written back once, after
  the half's last tile, so it holds the running triple that half ended with; the lines after the region merge the
  two triples — the common maximum taken from −∞ over the two maxima, each half rescaled by exp(m_p − m_g), the
  rescaled accumulators and normalisers summed over the halves, and their quotient laid out as one row.
-/
import proofs.«168512_j14955076125142_2_alg».proof.Proof.Gen.KernelIdeal.Frame
import proofs.«168512_j14955076125142_2_alg».proof.Proof.Spec
import proofs.«168512_j14955076125142_2_alg».proof.Proof.TileStep
import proofs.«168512_j14955076125142_2_alg».proof.Proof.LibRowwise
import proofs.«168512_j14955076125142_2_alg».proof.Proof.LibColumns
import proofs.«168512_j14955076125142_2_alg».proof.Proof.LibMaxAxes
import proofs.«168512_j14955076125142_2_alg».proof.Proof.LibAxisSums
import proofs.«168512_j14955076125142_2_alg».proof.Proof.KerTailMerge
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KerTail

open Idealize.ShloMosaic Idealize.ShloMosaic.TcCoe Idealize.SL.Sem Idealize.ShloMosaic.ValueIdx
open Cert.KernelIdeal Cert.KernelIdeal.Gen Cert.Attention
open Idealize.ShloMosaic.Pipeline (Dat)
open scoped BigOperators

variable (m : (ℓ : Loc nD τ sig) → Buf (Elt Ideal) ℓ) (ρ : Dev nD → PrngReg)

/-- The last grid point of half p: tile 63 of that half. -/
def lastPt (p : Fin 2) : Fin cfg0.N := ⟨64 * p.val + 63, by have := p.isLt; rw [show cfg0.N = 128 from N_0]; omega⟩

/-- The triple half p ends with: what the three output blocks hold after its last tile. -/
def halfState (c : Dev nD) (p : Fin 2) : State 1024 :=
  Cert.TileValue.toState (outsAt0 m c (lastPt p).val (lastPt p).isLt).1 (outsAt0 m c (lastPt p).val (lastPt p).isLt).2.1
    (outsAt0 m c (lastPt p).val (lastPt p).isLt).2.2

/-- What the three output blocks hold after the last tile of half p. -/
def half (c : Dev nD) (p : Fin 2) : Vec Ideal S1x1x1 .f32 × Vec Ideal S1x1x1 .f32 × Vec Ideal S1x1x1024 .f32 :=
  outsAt0 m c (lastPt p).val (lastPt p).isLt

theorem outsAt0_congr (c : Dev nD) {n n' : ℕ} (e : n = n') (h : n < cfg0.N) (h' : n' < cfg0.N) :
    outsAt0 m c n h = outsAt0 m c n' h' := by subst e; rfl

/-- A point that writes back is the last point of its half. -/
theorem half_of_flush (c : Dev nD) (t : Fin cfg0.N) (h63 : t.val % 64 = 63) (p : Fin 2) (hp : p.val = t.val / 64) :
    half m c p = outsAt0 m c t.val t.isLt :=
  outsAt0_congr m c (by show 64 * p.val + 63 = t.val; omega) _ _

/-- The three output windows' block indices, decided over the grid: the half on the leading axis, zero elsewhere. -/
theorem idx_out : ∀ t : Fin cfg0.N,
    (win0_12.index t (0 : Fin 3) = t.val / 64 ∧ win0_12.index t (1 : Fin 3) = 0 ∧ win0_12.index t (2 : Fin 3) = 0)
    ∧ (win0_13.index t (0 : Fin 3) = t.val / 64 ∧ win0_13.index t (1 : Fin 3) = 0 ∧ win0_13.index t (2 : Fin 3) = 0)
    ∧ (win0_14.index t (0 : Fin 3) = t.val / 64 ∧ win0_14.index t (1 : Fin 3) = 0 ∧ win0_14.index t (2 : Fin 3) = 0) :=
  (by decide +kernel : ∀ t : Fin grid0.N, _)

/-- The array of running maxima: entry (p, 0, 0) is what half p's block holds after its last tile. -/
def G12 (c : Dev nD) : FVec Ideal S2x1x1 .f32 := fun i => (half m c (i 0)).1 (ix3 (0 : Fin 1) (0 : Fin 1) (0 : Fin 1))
/-- The array of normalisers, likewise. -/
def G13 (c : Dev nD) : FVec Ideal S2x1x1 .f32 := fun i => (half m c (i 0)).2.1 (ix3 (0 : Fin 1) (0 : Fin 1) (0 : Fin 1))
/-- The array of accumulators: entry (p, 0, f) is half p's block at feature f after its last tile. -/
def G14 (c : Dev nD) : FVec Ideal S2x1x1024 .f32 := fun i => (half m c (i 0)).2.2 (ix3 (0 : Fin 1) (0 : Fin 1) (i 2))

theorem flushed12_eq (c : Dev nD) (t : Fin cfg0.N) (hf : (cfg0.win 12).flush t = true) :
    (dats m 0 c).flushed 12 t = ((cfg0.win 12).blk t).view.read (Elt Ideal) (G12 m c) := by
  have h63 : t.val % 64 = 63 := (flush0_12 t).mp hf
  show (cfg0.win 12).cut (grid0.coords t) ((dats m 0 c).after 12 t) = _
  rw [after0_12]
  funext y
  show (outsAt0 m c t.val t.isLt).1 y = G12 m c (((cfg0.win 12).blk t).view.emb y)
  obtain ⟨⟨e0, e1, e2⟩, -, -⟩ := idx_out t
  have hy0 : (y 0).val < 1 := (y 0).isLt
  have hy1 : (y 1).val < 1 := (y 1).isLt
  have hy2 : (y 2).val < 1 := (y 2).isLt
  have hp : ((((cfg0.win 12).blk t).view.emb y) 0).val = t.val / 64 := by
    show win0_12.index t (0 : Fin 3) * 1 + 1 * (y 0).val = _
    omega
  unfold G12
  rw [half_of_flush m c t h63 _ hp]
  refine congrArg _ (funext fun a => Fin.ext ?_)
  match a with
  | ⟨0, _⟩ => show (y 0).val = 0; omega
  | ⟨1, _⟩ => show (y 1).val = 0; omega
  | ⟨2, _⟩ => show (y 2).val = 0; omega

theorem mem_blk12 (t : Fin cfg0.N) (i : S2x1x1.Idx) :
    i ∈ ((cfg0.win 12).blk t).view.set ↔ ∀ a : Fin 3, win0_12.index t a * S1x1x1.size a ≤ (i a).val ∧ (i a).val < win0_12.index t a * S1x1x1.size a + S1x1x1.size a := by
  show i ∈ ((View.whole main_v18_0).slice (win0_12.rect t)).set ↔ _
  rw [View.set_slice_whole, Rect.mem_set_unit]
  exact Iff.rfl

theorem final12 (c : Dev nD) : (dats m 0 c).arrAt 12 cfg0.N = G12 m c :=
  (dats m 0 c).arrAt_eq_of_cover 12 (G12 m c) (flushed12_eq m c) fun i =>
    ⟨lastPt (i 0), (flush0_12 _).mpr (by show (64 * (i 0).val + 63) % 64 = 63; omega), by
      rw [mem_blk12]
      obtain ⟨⟨e0, e1, e2⟩, -, -⟩ := idx_out (lastPt (i 0))
      have hv : (lastPt (i 0)).val = 64 * (i 0).val + 63 := rfl
      have h0 : (i 0).val < 2 := (i 0).isLt
      have h1 : (i 1).val < 1 := (i 1).isLt
      have h2 : (i 2).val < 1 := (i 2).isLt
      intro a
      match a with
      | ⟨0, _⟩ => show win0_12.index (lastPt (i 0)) (0 : Fin 3) * 1 ≤ (i 0).val ∧ (i 0).val < win0_12.index (lastPt (i 0)) (0 : Fin 3) * 1 + 1; omega
      | ⟨1, _⟩ => show win0_12.index (lastPt (i 0)) (1 : Fin 3) * 1 ≤ (i 1).val ∧ (i 1).val < win0_12.index (lastPt (i 0)) (1 : Fin 3) * 1 + 1; omega
      | ⟨2, _⟩ => show win0_12.index (lastPt (i 0)) (2 : Fin 3) * 1 ≤ (i 2).val ∧ (i 2).val < win0_12.index (lastPt (i 0)) (2 : Fin 3) * 1 + 1; omega⟩

theorem flushed13_eq (c : Dev nD) (t : Fin cfg0.N) (hf : (cfg0.win 13).flush t = true) :
    (dats m 0 c).flushed 13 t = ((cfg0.win 13).blk t).view.read (Elt Ideal) (G13 m c) := by
  have h63 : t.val % 64 = 63 := (flush0_13 t).mp hf
  show (cfg0.win 13).cut (grid0.coords t) ((dats m 0 c).after 13 t) = _
  rw [after0_13]
  funext y
  show (outsAt0 m c t.val t.isLt).2.1 y = G13 m c (((cfg0.win 13).blk t).view.emb y)
  obtain ⟨-, ⟨e0, e1, e2⟩, -⟩ := idx_out t
  have hy0 : (y 0).val < 1 := (y 0).isLt
  have hy1 : (y 1).val < 1 := (y 1).isLt
  have hy2 : (y 2).val < 1 := (y 2).isLt
  have hp : ((((cfg0.win 13).blk t).view.emb y) 0).val = t.val / 64 := by
    show win0_13.index t (0 : Fin 3) * 1 + 1 * (y 0).val = _
    omega
  unfold G13
  rw [half_of_flush m c t h63 _ hp]
  refine congrArg _ (funext fun a => Fin.ext ?_)
  match a with
  | ⟨0, _⟩ => show (y 0).val = 0; omega
  | ⟨1, _⟩ => show (y 1).val = 0; omega
  | ⟨2, _⟩ => show (y 2).val = 0; omega

theorem mem_blk13 (t : Fin cfg0.N) (i : S2x1x1.Idx) :
    i ∈ ((cfg0.win 13).blk t).view.set ↔ ∀ a : Fin 3, win0_13.index t a * S1x1x1.size a ≤ (i a).val ∧ (i a).val < win0_13.index t a * S1x1x1.size a + S1x1x1.size a := by
  show i ∈ ((View.whole main_v18_1).slice (win0_13.rect t)).set ↔ _
  rw [View.set_slice_whole, Rect.mem_set_unit]
  exact Iff.rfl

theorem final13 (c : Dev nD) : (dats m 0 c).arrAt 13 cfg0.N = G13 m c :=
  (dats m 0 c).arrAt_eq_of_cover 13 (G13 m c) (flushed13_eq m c) fun i =>
    ⟨lastPt (i 0), (flush0_13 _).mpr (by show (64 * (i 0).val + 63) % 64 = 63; omega), by
      rw [mem_blk13]
      obtain ⟨-, ⟨e0, e1, e2⟩, -⟩ := idx_out (lastPt (i 0))
      have hv : (lastPt (i 0)).val = 64 * (i 0).val + 63 := rfl
      have h0 : (i 0).val < 2 := (i 0).isLt
      have h1 : (i 1).val < 1 := (i 1).isLt
      have h2 : (i 2).val < 1 := (i 2).isLt
      intro a
      match a with
      | ⟨0, _⟩ => show win0_13.index (lastPt (i 0)) (0 : Fin 3) * 1 ≤ (i 0).val ∧ (i 0).val < win0_13.index (lastPt (i 0)) (0 : Fin 3) * 1 + 1; omega
      | ⟨1, _⟩ => show win0_13.index (lastPt (i 0)) (1 : Fin 3) * 1 ≤ (i 1).val ∧ (i 1).val < win0_13.index (lastPt (i 0)) (1 : Fin 3) * 1 + 1; omega
      | ⟨2, _⟩ => show win0_13.index (lastPt (i 0)) (2 : Fin 3) * 1 ≤ (i 2).val ∧ (i 2).val < win0_13.index (lastPt (i 0)) (2 : Fin 3) * 1 + 1; omega⟩

theorem flushed14_eq (c : Dev nD) (t : Fin cfg0.N) (hf : (cfg0.win 14).flush t = true) :
    (dats m 0 c).flushed 14 t = ((cfg0.win 14).blk t).view.read (Elt Ideal) (G14 m c) := by
  have h63 : t.val % 64 = 63 := (flush0_14 t).mp hf
  show (cfg0.win 14).cut (grid0.coords t) ((dats m 0 c).after 14 t) = _
  rw [after0_14]
  funext y
  show (outsAt0 m c t.val t.isLt).2.2 y = G14 m c (((cfg0.win 14).blk t).view.emb y)
  obtain ⟨-, -, e0, e1, e2⟩ := idx_out t
  have hy0 : (y 0).val < 1 := (y 0).isLt
  have hy1 : (y 1).val < 1 := (y 1).isLt
  have hp : ((((cfg0.win 14).blk t).view.emb y) 0).val = t.val / 64 := by
    show win0_14.index t (0 : Fin 3) * 1 + 1 * (y 0).val = _
    omega
  unfold G14
  rw [half_of_flush m c t h63 _ hp]
  refine congrArg _ (funext fun a => Fin.ext ?_)
  match a with
  | ⟨0, _⟩ => show (y 0).val = 0; omega
  | ⟨1, _⟩ => show (y 1).val = 0; omega
  | ⟨2, _⟩ => show (y 2).val = win0_14.index t (2 : Fin 3) * 1024 + 1 * (y 2).val; omega

theorem mem_blk14 (t : Fin cfg0.N) (i : S2x1x1024.Idx) :
    i ∈ ((cfg0.win 14).blk t).view.set ↔ ∀ a : Fin 3, win0_14.index t a * S1x1x1024.size a ≤ (i a).val ∧ (i a).val < win0_14.index t a * S1x1x1024.size a + S1x1x1024.size a := by
  show i ∈ ((View.whole main_v18_2).slice (win0_14.rect t)).set ↔ _
  rw [View.set_slice_whole, Rect.mem_set_unit]
  exact Iff.rfl

theorem final14 (c : Dev nD) : (dats m 0 c).arrAt 14 cfg0.N = G14 m c :=
  (dats m 0 c).arrAt_eq_of_cover 14 (G14 m c) (flushed14_eq m c) fun i =>
    ⟨lastPt (i 0), (flush0_14 _).mpr (by show (64 * (i 0).val + 63) % 64 = 63; omega), by
      rw [mem_blk14]
      obtain ⟨-, -, e0, e1, e2⟩ := idx_out (lastPt (i 0))
      have hv : (lastPt (i 0)).val = 64 * (i 0).val + 63 := rfl
      have h0 : (i 0).val < 2 := (i 0).isLt
      have h1 : (i 1).val < 1 := (i 1).isLt
      have h2 : (i 2).val < 1024 := (i 2).isLt
      intro a
      match a with
      | ⟨0, _⟩ => show win0_14.index (lastPt (i 0)) (0 : Fin 3) * 1 ≤ (i 0).val ∧ (i 0).val < win0_14.index (lastPt (i 0)) (0 : Fin 3) * 1 + 1; omega
      | ⟨1, _⟩ => show win0_14.index (lastPt (i 0)) (1 : Fin 3) * 1 ≤ (i 1).val ∧ (i 1).val < win0_14.index (lastPt (i 0)) (1 : Fin 3) * 1 + 1; omega
      | ⟨2, _⟩ => show win0_14.index (lastPt (i 0)) (2 : Fin 3) * 1024 ≤ (i 2).val ∧ (i 2).val < win0_14.index (lastPt (i 0)) (2 : Fin 3) * 1024 + 1024; omega⟩

/-- Entry by entry, the three arrays hold the halves' final triples. -/
theorem triple_eq (c : Dev nD) : Cert.KerTailMerge.triple (G12 m c) (G13 m c) (G14 m c) = halfState m c := rfl

/-- The result buffer after the lines that follow the region: at feature f the merge of the two halves' triples. -/
theorem tail_eq (c : Dev nD) :
    Pipeline.afterTail₀ cfgs (dats m) 0 (V0 m) [hostOps1] c main_v34
      = fun i => merge (halfState m c) ((Finset.univ : Finset (Fin 2)).fold max (⊥ : EReal) (fun p => (halfState m c p).m)) (i 1) := by
  have e := Cert.KerTailMerge.after_tail (Pipeline.withArrays spec0 c (V0 m c) fun w => (dats m 0 c).arrAt w cfg0.N)
  have e12 : Pipeline.withArrays spec0 c (V0 m c) (fun w => (dats m 0 c).arrAt w cfg0.N) (Proc.devRef .tc main_v18_0) = G12 m c :=
    (Pipeline.withArrays_arr spec0 launch0.win.arr_inj c _ _ 12).trans (final12 m c)
  have e13 : Pipeline.withArrays spec0 c (V0 m c) (fun w => (dats m 0 c).arrAt w cfg0.N) (Proc.devRef .tc main_v18_1) = G13 m c :=
    (Pipeline.withArrays_arr spec0 launch0.win.arr_inj c _ _ 13).trans (final13 m c)
  have e14 : Pipeline.withArrays spec0 c (V0 m c) (fun w => (dats m 0 c).arrAt w cfg0.N) (Proc.devRef .tc main_v18_2) = G14 m c :=
    (Pipeline.withArrays_arr spec0 launch0.win.arr_inj c _ _ 14).trans (final14 m c)
  refine (e.trans (congr (congr (congrArg Cert.KerTailMerge.tail e12) e13) e14)).trans ?_
  funext i
  exact (congrArg _ (eq_ix2 (n0 := 1) (n1 := 1024) i)).trans
    (Cert.KerTailMerge.tail_apply (G12 m c) (G13 m c) (G14 m c) (i 0) (i 1))

/-- The run, read: the result row holds, at feature f, the merge of the two halves' final triples against the
    maximum of their maxima taken from −∞; the arguments end unchanged. -/
theorem run_merge : θ_run defs (onTc (τ := τ) (main (F := Ideal))) ⟨m, fun _ => 0, ρ⟩ fun r => ∀ c : Dev nD,
      r.2.mem ((c.tc : Thread nD τ).loc main_v34)
        = (fun i => merge (halfState m c) ((Finset.univ : Finset (Fin 2)).fold max (⊥ : EReal) (fun p => (halfState m c p).m)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨((h c).2 main_v34 (Pipeline.mem_restRefs_of main_v34 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KerTail

end
-- ==== Proof.KerResult.lean ====
/-
  The streamed program's result is the common value. Each half's final triple stands for the half's 64 tile
  sums of exp(e) and exp(e)·value; the common maximum of the two halves' maxima is a real number; so the merge is
  the quotient of the two totals, and the halves' tile sums of rows add up to the sums over all 65536 rows —
  numerator and denominator of the softmax-weighted average. The denominator is a sum of positive numbers.
-/
import proofs.«168512_j14955076125142_2_alg».proof.Proof.KerInduction
import proofs.«168512_j14955076125142_2_alg».proof.Proof.KerTail

noncomputable section

namespace Cert.KerValue

open Idealize.ShloMosaic Idealize.ShloMosaic.TcCoe Idealize.SL.Sem Idealize.ShloMosaic.ValueIdx
open Cert.KernelIdeal Cert.KernelIdeal.Gen Cert.Attention Cert.KerTail
open scoped BigOperators

variable (m : (ℓ : Loc nD τ sig) → Buf (Elt Ideal) ℓ)

/-- The sums over all rows, from the halves' tile sums. -/
theorem total_l (c : Dev nD) :
    (∑ p : Fin 2, ∑ j ∈ Finset.range 64, Tl m c (64 * p.val + j)) = ∑ n : Fin 65536, Real.exp (eR m c n) := by
  unfold Tl
  rw [sum_halves_tiles_rows (fun n => Real.exp (eN m c n))]
  refine Finset.sum_congr rfl fun n _ => ?_
  unfold eN
  rw [dif_pos n.isLt]

theorem total_a (c : Dev nD) (f : Fin 1024) :
    (∑ p : Fin 2, ∑ j ∈ Finset.range 64, Ta m c f (64 * p.val + j))
      = ∑ n : Fin 65536, Real.exp (eR m c n) * vR m c n f := by
  unfold Ta
  rw [sum_halves_tiles_rows (fun n => Real.exp (eN m c n) * vN m c n f)]
  refine Finset.sum_congr rfl fun n _ => ?_
  unfold eN vN
  rw [dif_pos n.isLt, dif_pos n.isLt]

/-- The total normaliser is positive. -/
theorem total_l_ne (c : Dev nD) : (∑ n : Fin 65536, Real.exp (eR m c n)) ≠ 0 :=
  (Finset.sum_pos (fun n _ => Real.exp_pos _) ⟨⟨0, by decide⟩, Finset.mem_univ _⟩).ne'

/-- Each half ends standing for its 64 tile sums. -/
theorem half_holds (c : Dev nD) (hr : RealInputs m c) (p : Fin 2) :
    (halfState m c p).Holds (∑ j ∈ Finset.range 64, Tl m c (64 * p.val + j))
      (fun f => ∑ j ∈ Finset.range 64, Ta m c f (64 * p.val + j)) :=
  holds_last m c hr p.val (lastPt p).isLt

/-- THE KERNEL'S VALUE: for real inputs the merge of the two halves is the common value. -/
theorem merged_eq_out (c : Dev nD) (hr : RealInputs m c) (f : Fin 1024) :
    merge (halfState m c) ((Finset.univ : Finset (Fin 2)).fold max (⊥ : EReal) (fun p => (halfState m c p).m)) f
      = out (key m c) (query m c) (value m c) (W0 m c) (W1 m c) (Wa m c) (b0 m c) (b1 m c) (ba m c) f := by
  obtain ⟨mg, hmg⟩ := isReal_fold_max (by decide : 0 < 2) (fun p => (halfState m c p).m)
    (fun p => (half_holds m c hr p).isReal_m)
  have hL : (∑ p : Fin 2, ∑ j ∈ Finset.range 64, Tl m c (64 * p.val + j)) ≠ 0 := by
    rw [total_l]; exact total_l_ne m c
  rw [hmg, merge_eq (halfState m c) _ _ (half_holds m c hr) hL mg f, total_l, total_a]
  rfl

end Cert.KerValue

end
-- ==== Proof.Claims.lean ====
/-
  The five claims. The two kernels' frames are the generated ones; the reference's frame is its generated run
  with the result forgotten; the idealized kernel differs from the printed one only by three narrow-and-widen
  pairs that are the identity on extended reals. For the value claim: the precondition makes every input entry
  a real number, and then both programs end with the same row — at feature f the softmax-weighted average of the
  rows of `value` under the energies of (key, query): the streamed program by merging its two halves' running
  triples, the whole-array program by normalising and contracting.
-/
import proofs.«168512_j14955076125142_2_alg».proof.Defs
import proofs.«168512_j14955076125142_2_alg».proof.Proof.Gen.Kernel
import proofs.«168512_j14955076125142_2_alg».proof.Proof.Gen.KernelIdeal
import proofs.«168512_j14955076125142_2_alg».proof.Proof.Gen.ReferenceIdeal
import proofs.«168512_j14955076125142_2_alg».proof.Proof.Gen.Pre_finite_inputs
import proofs.«168512_j14955076125142_2_alg».proof.Proof.Gen.Kernel.Frame
import proofs.«168512_j14955076125142_2_alg».proof.Proof.Gen.KernelIdeal.Frame
import proofs.«168512_j14955076125142_2_alg».proof.Proof.RefImports
import proofs.«168512_j14955076125142_2_alg».proof.Proof.Sanctioned
import proofs.«168512_j14955076125142_2_alg».proof.Proof.FiniteInputs
import proofs.«168512_j14955076125142_2_alg».proof.Proof.RefValue
import proofs.«168512_j14955076125142_2_alg».proof.Proof.KerResult

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := Cert.Proof.Sanctioned.preserves

/-- Both programs end, from memories agreeing on finite arguments, with the same row. -/
theorem algebraic : Cert.algebraic_KernelIdeal_ReferenceIdeal := by
  intro m ρ m' ρ' hpre hagree
  have hr : ∀ c, Cert.KerValue.RealInputs m c := fun c => by
    obtain ⟨h0, h1, h2, h3, h4, h5, h6, h7, h8⟩ := Cert.FiniteInputs.real_entries _ _ _ _ _ _ _ _ _ (hpre c)
    exact ⟨h0, h1, h2, h3, h4, h5, h6, h7, h8⟩
  refine ⟨fun c => fun i => Cert.Attention.out (Cert.KerValue.key m c) (Cert.KerValue.query m c) (Cert.KerValue.value m c)
      (Cert.KerValue.W0 m c) (Cert.KerValue.W1 m c) (Cert.KerValue.Wa m c) (Cert.KerValue.b0 m c) (Cert.KerValue.b1 m c)
      (Cert.KerValue.ba m c) (i 1), ?_, ?_⟩
  · refine (θ_run Cert.KernelIdeal.defs _ _).mono (fun r h c => ⟨(h c).1.trans ?_, (h c).2⟩) (Cert.KerTail.run_merge m ρ)
    funext i
    exact Cert.KerValue.merged_eq_out m c (hr c) (i 1)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq]
    obtain ⟨a0, a1, a2, a3, a4, a5, a6, a7, a8⟩ := hagree c
    rw [a0, a1, a2, a3, a4, a5, a6, a7, a8]
    funext i
    obtain ⟨u, f, rfl⟩ : ∃ (u : Fin 1) (f : Fin 1024), i = ix2 u f := ⟨i 0, i 1, eq_ix2 i⟩
    obtain rfl : u = 0 := Subsingleton.elim _ _
    exact Cert.RefValue.result_eq_out _ _ _ _ _ _ _ _ _ (hr c).h0 (hr c).h1 (hr c).h2 (hr c).h3 (hr c).h4 (hr c).h5
      (hr c).h6 (hr c).h7 (hr c).h8 f

end Cert.Proof.Claims

end
-- ==== Proof.lean ====
/-
  The proof of the certificate's claim: single-query attention over 65536 rows of 1024 features, streamed in
  tiles with a running softmax on two halves of the rows and merged, against the same attention computed on the
  whole arrays. The mathematics is laid out in Proof/Spec.lean; Proof/Claims.lean assembles the five claims from
  the modules that read each program back (Proof/Ker*.lean and Proof/Tile*.lean for the streamed program,
  Proof/Ref*.lean for the whole-array one) and the algebra that joins them (Proof/SoftmaxAlgebra.lean,
  Proof/HalfSums.lean), behind the witnesses of the programs' stated side conditions.
-/
import proofs.«168512_j14955076125142_2_alg».proof.Defs
import proofs.«168512_j14955076125142_2_alg».proof.Proof.Gen.Kernel
import proofs.«168512_j14955076125142_2_alg».proof.Proof.Gen.Kernel.Skeleton
import proofs.«168512_j14955076125142_2_alg».proof.Proof.Gen.Kernel.Launch
import proofs.«168512_j14955076125142_2_alg».proof.Proof.Gen.Kernel.Points
import proofs.«168512_j14955076125142_2_alg».proof.Proof.Gen.Kernel.Frame
import proofs.«168512_j14955076125142_2_alg».proof.Proof.Gen.KernelIdeal
import proofs.«168512_j14955076125142_2_alg».proof.Proof.Gen.KernelIdeal.Skeleton
import proofs.«168512_j14955076125142_2_alg».proof.Proof.Gen.KernelIdeal.Launch
import proofs.«168512_j14955076125142_2_alg».proof.Proof.Gen.KernelIdeal.Points
import proofs.«168512_j14955076125142_2_alg».proof.Proof.Gen.KernelIdeal.Frame
import proofs.«168512_j14955076125142_2_alg».proof.Proof.Gen.ReferenceIdeal
import proofs.«168512_j14955076125142_2_alg».proof.Proof.Gen.Pre_finite_inputs
import proofs.«168512_j14955076125142_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
